-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S573440x128 : Shape := ⟨2, ![573440, 128]⟩
abbrev S98304 : Shape := ⟨1, ![98304]⟩
abbrev S2x802816 : Shape := ⟨2, ![2, 802816]⟩
abbrev S802816 : Shape := ⟨1, ![802816]⟩
abbrev S114688 : Shape := ⟨1, ![114688]⟩
abbrev S128x128x8 : Shape := ⟨3, ![128, 128, 8]⟩
abbrev S945x128 : Shape := ⟨2, ![945, 128]⟩
abbrev S_ : Shape := ⟨0, ![]⟩

class Facts : Prop where
  bcast_S_S573440x128 : S_.BroadcastsInDim S573440x128 (![] : Fin 0 → Fin S573440x128.rank)
  reducesTo_S573440x128_S_d0_1 : S573440x128.ReducesTo [0, 1] S_
  h_S_ : 0 < S_.numel
  bcast_S_S128x128x8 : S_.BroadcastsInDim S128x128x8 (![] : Fin 0 → Fin S128x128x8.rank)
  reducesTo_S128x128x8_S_d0_1_2 : S128x128x8.ReducesTo [0, 1, 2] S_
  bcast_S_S945x128 : S_.BroadcastsInDim S945x128 (![] : Fin 0 → Fin S945x128.rank)
  reducesTo_S945x128_S_d0_1 : S945x128.ReducesTo [0, 1] S_

variable [Facts]

def fn {F : FTy → Type} [FloatOps F] (main_arg0 : FVec F S573440x128 .f32) (main_arg1 : IVec S98304 1) (main_arg2 : IVec S2x802816 32) (main_arg3 : IVec S802816 32) (main_arg4 : IVec S114688 32) (main_arg5 : FVec F S128x128x8 .f32) (main_arg6 : FVec F S945x128 .f32) : IVec S_ 1 :=
  let main_v0 : FVec F S573440x128 .f32 := Host.absf main_arg0
  let main_cst : FVec F S_ .f32 := constant S_ .f32 0x7F800000#32
  let main_v1 : FVec F S573440x128 .f32 := broadcastInDim S573440x128 ![] bcast_S_S573440x128 main_cst
  let main_v2 : IVec S573440x128 1 := cmpf .olt main_v0 main_v1
  let main_c : IVec S_ 1 := constantI S_ 1 1#1
  let main_v3 : IVec S_ 1 := (fun x v => Host.reduce IntOp.andi x v reducesTo_S573440x128_S_d0_1 h_S_) main_v2 main_c
  let main_v4 : FVec F S128x128x8 .f32 := Host.absf main_arg5
  let main_cst_0 : FVec F S_ .f32 := constant S_ .f32 0x7F800000#32
  let main_v5 : FVec F S128x128x8 .f32 := broadcastInDim S128x128x8 ![] bcast_S_S128x128x8 main_cst_0
  let main_v6 : IVec S128x128x8 1 := cmpf .olt main_v4 main_v5
  let main_c_1 : IVec S_ 1 := constantI S_ 1 1#1
  let main_v7 : IVec S_ 1 := (fun x v => Host.reduce IntOp.andi x v reducesTo_S128x128x8_S_d0_1_2 h_S_) main_v6 main_c_1
  let main_v8 : IVec S_ 1 := andi main_v3 main_v7
  let main_v9 : FVec F S945x128 .f32 := Host.absf main_arg6
  let main_cst_2 : FVec F S_ .f32 := constant S_ .f32 0x7F800000#32
  let main_v10 : FVec F S945x128 .f32 := broadcastInDim S945x128 ![] bcast_S_S945x128 main_cst_2
  let main_v11 : IVec S945x128 1 := cmpf .olt main_v9 main_v10
  let main_c_3 : IVec S_ 1 := constantI S_ 1 1#1
  let main_v12 : IVec S_ 1 := (fun x v => Host.reduce IntOp.andi x v reducesTo_S945x128_S_d0_1 h_S_) main_v11 main_c_3
  let main_v13 : IVec S_ 1 := andi main_v8 main_v12
  main_v13
-- ==== Kernel.lean ====
abbrev S573440x128 : Shape := ⟨2, ![573440, 128]⟩
abbrev S98304 : Shape := ⟨1, ![98304]⟩
abbrev S2x802816 : Shape := ⟨2, ![2, 802816]⟩
abbrev S802816 : Shape := ⟨1, ![802816]⟩
abbrev S114688 : Shape := ⟨1, ![114688]⟩
abbrev S128x128x8 : Shape := ⟨3, ![128, 128, 8]⟩
abbrev S945x128 : Shape := ⟨2, ![945, 128]⟩
abbrev S524288x128 : Shape := ⟨2, ![524288, 128]⟩
abbrev S65536x1024 : Shape := ⟨2, ![65536, 1024]⟩
abbrev S128x1024 : Shape := ⟨2, ![128, 1024]⟩
abbrev S1024x128 : Shape := ⟨2, ![1024, 128]⟩
abbrev S65536x128 : Shape := ⟨2, ![65536, 128]⟩
abbrev S4096x1024 : Shape := ⟨2, ![4096, 1024]⟩
abbrev S4096x128 : Shape := ⟨2, ![4096, 128]⟩
abbrev S32768x128 : Shape := ⟨2, ![32768, 128]⟩
abbrev S_ : Shape := ⟨0, ![]⟩
abbrev S98304x1 : Shape := ⟨2, ![98304, 1]⟩
abbrev S98304x128 : Shape := ⟨2, ![98304, 128]⟩
abbrev S16384x128 : Shape := ⟨2, ![16384, 128]⟩
abbrev S114688x128 : Shape := ⟨2, ![114688, 128]⟩
abbrev S114688x1 : Shape := ⟨2, ![114688, 1]⟩
abbrev S1x7 : Shape := ⟨2, ![1, 7]⟩
abbrev S114688x7 : Shape := ⟨2, ![114688, 7]⟩
abbrev S114688x135 : Shape := ⟨2, ![114688, 135]⟩
abbrev S1x802816 : Shape := ⟨2, ![1, 802816]⟩
abbrev S802816x1 : Shape := ⟨2, ![802816, 1]⟩
abbrev S802816x135 : Shape := ⟨2, ![802816, 135]⟩
abbrev S114688x945 : Shape := ⟨2, ![114688, 945]⟩
abbrev S4096x945 : Shape := ⟨2, ![4096, 945]⟩

abbrev nBuf : Space → Nat
  | .hbm => 85
  | .vmem => 10
  | .smem => 0
  | _ => 0

abbrev bufTy : (tb : Table) → Fin (tcTables nBuf tb) → BufTy
  | .hbm, ⟨0, _⟩ => ⟨S573440x128, .f32⟩
  | .hbm, ⟨1, _⟩ => ⟨S98304, .i1⟩
  | .hbm, ⟨2, _⟩ => ⟨S2x802816, .i32⟩
  | .hbm, ⟨3, _⟩ => ⟨S802816, .i32⟩
  | .hbm, ⟨4, _⟩ => ⟨S114688, .i32⟩
  | .hbm, ⟨5, _⟩ => ⟨S128x128x8, .f32⟩
  | .hbm, ⟨6, _⟩ => ⟨S945x128, .f32⟩
  | .hbm, ⟨7, _⟩ => ⟨S524288x128, .f32⟩
  | .hbm, ⟨8, _⟩ => ⟨S65536x1024, .f32⟩
  | .hbm, ⟨9, _⟩ => ⟨S65536x1024, .bf16⟩
  | .hbm, ⟨10, _⟩ => ⟨S128x1024, .f32⟩
  | .hbm, ⟨11, _⟩ => ⟨S1024x128, .f32⟩
  | .hbm, ⟨12, _⟩ => ⟨S1024x128, .bf16⟩
  | .hbm, ⟨13, _⟩ => ⟨S65536x128, .f32⟩
  | .hbm, ⟨14, _⟩ => ⟨S32768x128, .f32⟩
  | .hbm, ⟨15, _⟩ => ⟨S98304, .i32⟩
  | .hbm, ⟨16, _⟩ => ⟨S_, .i32⟩
  | .hbm, ⟨17, _⟩ => ⟨S_, .i32⟩
  | .hbm, ⟨18, _⟩ => ⟨S98304, .i32⟩
  | .hbm, ⟨19, _⟩ => ⟨S_, .i32⟩
  | .hbm, ⟨20, _⟩ => ⟨S98304, .i32⟩
  | .hbm, ⟨21, _⟩ => ⟨S98304, .i32⟩
  | .hbm, ⟨22, _⟩ => ⟨S98304, .i1⟩
  | .hbm, ⟨23, _⟩ => ⟨S98304, .i32⟩
  | .hbm, ⟨24, _⟩ => ⟨S_, .i32⟩
  | .hbm, ⟨25, _⟩ => ⟨S_, .i32⟩
  | .hbm, ⟨26, _⟩ => ⟨S98304, .i32⟩
  | .hbm, ⟨27, _⟩ => ⟨S_, .i32⟩
  | .hbm, ⟨28, _⟩ => ⟨S98304, .i32⟩
  | .hbm, ⟨29, _⟩ => ⟨S98304, .i32⟩
  | .hbm, ⟨30, _⟩ => ⟨S98304x1, .i1⟩
  | .hbm, ⟨31, _⟩ => ⟨S_, .i32⟩
  | .hbm, ⟨32, _⟩ => ⟨S98304, .i32⟩
  | .hbm, ⟨33, _⟩ => ⟨S98304, .i1⟩
  | .hbm, ⟨34, _⟩ => ⟨S_, .i32⟩
  | .hbm, ⟨35, _⟩ => ⟨S98304, .i32⟩
  | .hbm, ⟨36, _⟩ => ⟨S98304, .i32⟩
  | .hbm, ⟨37, _⟩ => ⟨S98304, .i32⟩
  | .hbm, ⟨38, _⟩ => ⟨S98304x1, .i32⟩
  | .hbm, ⟨39, _⟩ => ⟨S98304x128, .f32⟩
  | .hbm, ⟨40, _⟩ => ⟨S_, .i32⟩
  | .hbm, ⟨41, _⟩ => ⟨S98304, .i32⟩
  | .hbm, ⟨42, _⟩ => ⟨S98304, .i1⟩
  | .hbm, ⟨43, _⟩ => ⟨S_, .i32⟩
  | .hbm, ⟨44, _⟩ => ⟨S98304, .i32⟩
  | .hbm, ⟨45, _⟩ => ⟨S98304, .i32⟩
  | .hbm, ⟨46, _⟩ => ⟨S98304, .i32⟩
  | .hbm, ⟨47, _⟩ => ⟨S98304x1, .i32⟩
  | .hbm, ⟨48, _⟩ => ⟨S98304x128, .f32⟩
  | .hbm, ⟨49, _⟩ => ⟨S98304x128, .i1⟩
  | .hbm, ⟨50, _⟩ => ⟨S98304x128, .f32⟩
  | .hbm, ⟨51, _⟩ => ⟨S16384x128, .f32⟩
  | .hbm, ⟨52, _⟩ => ⟨S114688x128, .f32⟩
  | .hbm, ⟨53, _⟩ => ⟨S114688x1, .i32⟩
  | .hbm, ⟨54, _⟩ => ⟨S1x7, .i32⟩
  | .hbm, ⟨55, _⟩ => ⟨S114688x7, .i32⟩
  | .hbm, ⟨56, _⟩ => ⟨S114688x7, .i32⟩
  | .hbm, ⟨57, _⟩ => ⟨S114688x7, .i1⟩
  | .hbm, ⟨58, _⟩ => ⟨S114688x7, .f32⟩
  | .hbm, ⟨59, _⟩ => ⟨S114688x135, .f32⟩
  | .hbm, ⟨60, _⟩ => ⟨S1x802816, .i32⟩
  | .hbm, ⟨61, _⟩ => ⟨S802816, .i32⟩
  | .hbm, ⟨62, _⟩ => ⟨S1x802816, .i32⟩
  | .hbm, ⟨63, _⟩ => ⟨S802816, .i32⟩
  | .hbm, ⟨64, _⟩ => ⟨S_, .i32⟩
  | .hbm, ⟨65, _⟩ => ⟨S802816, .i32⟩
  | .hbm, ⟨66, _⟩ => ⟨S802816, .i32⟩
  | .hbm, ⟨67, _⟩ => ⟨S802816, .i32⟩
  | .hbm, ⟨68, _⟩ => ⟨S_, .i32⟩
  | .hbm, ⟨69, _⟩ => ⟨S802816, .i32⟩
  | .hbm, ⟨70, _⟩ => ⟨S802816, .i1⟩
  | .hbm, ⟨71, _⟩ => ⟨S_, .i32⟩
  | .hbm, ⟨72, _⟩ => ⟨S802816, .i32⟩
  | .hbm, ⟨73, _⟩ => ⟨S802816, .i32⟩
  | .hbm, ⟨74, _⟩ => ⟨S802816, .i32⟩
  | .hbm, ⟨75, _⟩ => ⟨S802816x1, .i32⟩
  | .hbm, ⟨76, _⟩ => ⟨S802816x135, .f32⟩
  | .hbm, ⟨77, _⟩ => ⟨S_, .f32⟩
  | .hbm, ⟨78, _⟩ => ⟨S802816x135, .f32⟩
  | .hbm, ⟨79, _⟩ => ⟨S802816x1, .i32⟩
  | .hbm, ⟨80, _⟩ => ⟨S802816x135, .f32⟩
  | .hbm, ⟨81, _⟩ => ⟨S114688x945, .f32⟩
  | .hbm, ⟨82, _⟩ => ⟨S114688x945, .bf16⟩
  | .hbm, ⟨83, _⟩ => ⟨S945x128, .bf16⟩
  | .hbm, ⟨84, _⟩ => ⟨S114688x128, .f32⟩
  | .local _ .vmem, ⟨0, _⟩ => ⟨S4096x1024, .bf16⟩
  | .local _ .vmem, ⟨1, _⟩ => ⟨S4096x1024, .bf16⟩
  | .local _ .vmem, ⟨2, _⟩ => ⟨S1024x128, .bf16⟩
  | .local _ .vmem, ⟨3, _⟩ => ⟨S4096x128, .f32⟩
  | .local _ .vmem, ⟨4, _⟩ => ⟨S4096x128, .f32⟩
  | .local _ .vmem, ⟨5, _⟩ => ⟨S4096x945, .bf16⟩
  | .local _ .vmem, ⟨6, _⟩ => ⟨S4096x945, .bf16⟩
  | .local _ .vmem, ⟨7, _⟩ => ⟨S945x128, .bf16⟩
  | .local _ .vmem, ⟨8, _⟩ => ⟨S4096x128, .f32⟩
  | .local _ .vmem, ⟨9, _⟩ => ⟨S4096x128, .f32⟩
  | _, _ => ⟨S573440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_call0_c : Ref sig .tc := ⟨.hbm, 16, rfl⟩
abbrev main_call0_call0_v0 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_call0_c : Ref sig .tc := ⟨.hbm, 24, rfl⟩
abbrev main_call1_call0_v0 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x945 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S945x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S573440x128_S524288x128_49152_0 : S573440x128.Slices ![49152, 0] S524288x128
  shapeCasts_S524288x128_S65536x1024 : S524288x128.ShapeCasts S65536x1024
  bitsLt_bf16_f32 : FTy.bits .bf16 < FTy.bits .f32
  shapeCasts_S128x128x8_S128x1024 : S128x128x8.ShapeCasts S128x1024
  transposes_S128x1024_S1024x128_1_0 : S128x1024.Transposes [1, 0] S1024x128
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x128_S4096x128_0_0 : ∀ a, (![0, 0] : Fin 2 → Nat) a + S4096x128.size a ≤ S4096x128.size a
  h_S4096x128 : 0 < S4096x128.numel
  slices_S573440x128_S32768x128_16384_0 : S573440x128.Slices ![16384, 0] S32768x128
  natLt_1_32 : 1 < 32
  bcast_S_S_ : S_.BroadcastsInDim S_ (![] : Fin 0 → Fin S_.rank)
  reduceWindows_S98304_S98304_w98304s1p98303_0 : S98304.ReduceWindows (![98304] : Fin 1 → Nat) ![1] ![98303] ![0] S98304
  h_S_ : 0 < S_.numel
  bcast_S_S98304 : S_.BroadcastsInDim S98304 (![] : Fin 0 → Fin S98304.rank)
  bcast_S98304_S98304x1_0 : S98304.BroadcastsInDim S98304x1 (![0] : Fin 1 → Fin S98304x1.rank)
  bcast_S98304x1_S98304x128_0_1 : S98304x1.BroadcastsInDim S98304x128 (![0, 1] : Fin 2 → Fin S98304x128.rank)
  slices_S573440x128_S16384x128_0_0 : S573440x128.Slices ![0, 0] S16384x128
  concatenates_S16384x128_S98304x128_S114688x128_d0 : Shape.Concatenates [S16384x128, S98304x128] S114688x128 0
  bcast_S114688_S114688x1_0 : S114688.BroadcastsInDim S114688x1 (![0] : Fin 1 → Fin S114688x1.rank)
  bcast_S114688x1_S114688x7_0_1 : S114688x1.BroadcastsInDim S114688x7 (![0, 1] : Fin 2 → Fin S114688x7.rank)
  bcast_S1x7_S114688x7_0_1 : S1x7.BroadcastsInDim S114688x7 (![0, 1] : Fin 2 → Fin S114688x7.rank)
  concatenates_S114688x128_S114688x7_S114688x135_d1 : Shape.Concatenates [S114688x128, S114688x7] S114688x135 1
  slices_S2x802816_S1x802816_0_0 : S2x802816.Slices ![0, 0] S1x802816
  shapeCasts_S1x802816_S802816 : S1x802816.ShapeCasts S802816
  slices_S2x802816_S1x802816_1_0 : S2x802816.Slices ![1, 0] S1x802816
  bcast_S_S802816 : S_.BroadcastsInDim S802816 (![] : Fin 0 → Fin S802816.rank)
  bcast_S802816_S802816x1_0 : S802816.BroadcastsInDim S802816x1 (![0] : Fin 1 → Fin S802816x1.rank)
  bcast_S_S802816x135 : S_.BroadcastsInDim S802816x135 (![] : Fin 0 → Fin S802816x135.rank)
  shapeCasts_S802816x135_S114688x945 : S802816x135.ShapeCasts S114688x945
  inb_S4096x945_S4096x945_0_0 : ∀ a, (![0, 0] : Fin 2 → Nat) a + S4096x945.size a ≤ S4096x945.size a
  h_S4096x945 : 0 < S4096x945.numel
  shapeCasts_S4096x945_S4096x945 : S4096x945.ShapeCasts S4096x945
  inb_S945x128_S945x128_0_0 : ∀ a, (![0, 0] : Fin 2 → Nat) a + S945x128.size a ≤ S945x128.size a
  h_S945x128 : 0 < S945x128.numel
  shapeCasts_S945x128_S945x128 : S945x128.ShapeCasts S945x128
  dot_S4096x1024_S1024x128_S4096x128_1_0_0_1_n_n_wf : DotDims.WF S4096x1024 S1024x128 S4096x128 [1] [0] [0] [1] [] []
  gather_S32768x128_S98304x1_S98304x128_1_0_n_n_0_1_1128_wf : GatherDims.WF S32768x128 S98304x1 S98304x128 [1] [0] [] [0] [] 1 ![1, 128]
  gather_S65536x128_S98304x1_S98304x128_1_0_n_n_0_1_1128_wf : GatherDims.WF S65536x128 S98304x1 S98304x128 [1] [0] [] [0] [] 1 ![1, 128]
  gather_S114688x135_S802816x1_S802816x135_1_0_n_n_0_1_1135_wf : GatherDims.WF S114688x135 S802816x1 S802816x135 [1] [0] [] [0] [] 1 ![1, 135]
  scatter_S802816x135_S802816x1_S802816x135_1_0_0_1_wf : ScatterDims.WF S802816x135 S802816x1 S802816x135 [1] [0] [0] 1
  dot_S4096x945_S945x128_S4096x128_1_0_0_1_n_n_wf : DotDims.WF S4096x945 S945x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .bf16 = 32 ∨ (Rect.block (s := S65536x1024) S4096x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x945.size a ≤ S114688x945.size a
  hwx1_0 : ∀ i : grid1.Coords, EltTy.bits .bf16 = 32 ∨ (Rect.block (s := S114688x945) S4096x945.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S945x128.size a ≤ S945x128.size a
  hwx1_1 : ∀ i : grid1.Coords, EltTy.bits .bf16 = 32 ∨ (Rect.block (s := S945x128) S945x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S114688x128.size a
  hwx1_2 : ∀ i : grid1.Coords, EltTy.bits .f32 = 32 ∨ (Rect.block (s := S114688x128) S4096x128.size (cc1_transform_2 i) (hinb1_2 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def gather_S32768x128_S98304x1_S98304x128_1_0_n_n_0_1_1128 : GatherDims S32768x128 S98304x1 S98304x128 where
  offsetDims := [1]
  collapsedSliceDims := [0]
  operandBatchingDims := []
  startIndicesBatchingDims := []
  startIndexMap := [0]
  indexVectorDim := 1
  sliceSizes := ![1, 128]
  wf := gather_S32768x128_S98304x1_S98304x128_1_0_n_n_0_1_1128_wf
def gather_S65536x128_S98304x1_S98304x128_1_0_n_n_0_1_1128 : GatherDims S65536x128 S98304x1 S98304x128 where
  offsetDims := [1]
  collapsedSliceDims := [0]
  operandBatchingDims := []
  startIndicesBatchingDims := []
  startIndexMap := [0]
  indexVectorDim := 1
  sliceSizes := ![1, 128]
  wf := gather_S65536x128_S98304x1_S98304x128_1_0_n_n_0_1_1128_wf
def gather_S114688x135_S802816x1_S802816x135_1_0_n_n_0_1_1135 : GatherDims S114688x135 S802816x1 S802816x135 where
  offsetDims := [1]
  collapsedSliceDims := [0]
  operandBatchingDims := []
  startIndicesBatchingDims := []
  startIndexMap := [0]
  indexVectorDim := 1
  sliceSizes := ![1, 135]
  wf := gather_S114688x135_S802816x1_S802816x135_1_0_n_n_0_1_1135_wf
def scatter_S802816x135_S802816x1_S802816x135_1_0_0_1 : ScatterDims S802816x135 S802816x1 S802816x135 where
  updateWindowDims := [1]
  insertedWindowDims := [0]
  scatterDimsToOperandDims := [0]
  indexVectorDim := 1
  wf := scatter_S802816x135_S802816x1_S802816x135_1_0_0_1_wf
def dot_S4096x945_S945x128_S4096x128_1_0_0_1_n_n : DotDims S4096x945 S945x128 S4096x128 where
  lhsContracting := [1]
  rhsContracting := [0]
  lhsNonContracting := [0]
  rhsNonContracting := [1]
  lhsBatch := []
  rhsBatch := []
  wf := dot_S4096x945_S945x128_S4096x128_1_0_0_1_n_n_wf

abbrev win0_0 : Pipeline.Window sig grid0 :=
  Pipeline.Window.ofSpec (Memref.whole main_v2) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S4096x945.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S945x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S573440x128 : Shape := ⟨2, ![573440, 128]⟩
abbrev S98304 : Shape := ⟨1, ![98304]⟩
abbrev S2x802816 : Shape := ⟨2, ![2, 802816]⟩
abbrev S802816 : Shape := ⟨1, ![802816]⟩
abbrev S114688 : Shape := ⟨1, ![114688]⟩
abbrev S128x128x8 : Shape := ⟨3, ![128, 128, 8]⟩
abbrev S945x128 : Shape := ⟨2, ![945, 128]⟩
abbrev S524288x128 : Shape := ⟨2, ![524288, 128]⟩
abbrev S65536x1024 : Shape := ⟨2, ![65536, 1024]⟩
abbrev S128x1024 : Shape := ⟨2, ![128, 1024]⟩
abbrev S1024x128 : Shape := ⟨2, ![1024, 128]⟩
abbrev S65536x128 : Shape := ⟨2, ![65536, 128]⟩
abbrev S32768x128 : Shape := ⟨2, ![32768, 128]⟩
abbrev S_ : Shape := ⟨0, ![]⟩
abbrev S98304x1 : Shape := ⟨2, ![98304, 1]⟩
abbrev S98304x128 : Shape := ⟨2, ![98304, 128]⟩
abbrev S16384x128 : Shape := ⟨2, ![16384, 128]⟩
abbrev S114688x128 : Shape := ⟨2, ![114688, 128]⟩
abbrev S114688x1 : Shape := ⟨2, ![114688, 1]⟩
abbrev S1x7 : Shape := ⟨2, ![1, 7]⟩
abbrev S114688x7 : Shape := ⟨2, ![114688, 7]⟩
abbrev S114688x135 : Shape := ⟨2, ![114688, 135]⟩
abbrev S1x802816 : Shape := ⟨2, ![1, 802816]⟩
abbrev S802816x1 : Shape := ⟨2, ![802816, 1]⟩
abbrev S802816x135 : Shape := ⟨2, ![802816, 135]⟩
abbrev S114688x945 : Shape := ⟨2, ![114688, 945]⟩

abbrev nBuf : Space → Nat
  | .hbm => 81
  | .vmem => 0
  | .smem => 0
  | _ => 0

abbrev bufTy : (tb : Table) → Fin (tcTables nBuf tb) → BufTy
  | .hbm, ⟨0, _⟩ => ⟨S573440x128, .f32⟩
  | .hbm, ⟨1, _⟩ => ⟨S98304, .i1⟩
  | .hbm, ⟨2, _⟩ => ⟨S2x802816, .i32⟩
  | .hbm, ⟨3, _⟩ => ⟨S802816, .i32⟩
  | .hbm, ⟨4, _⟩ => ⟨S114688, .i32⟩
  | .hbm, ⟨5, _⟩ => ⟨S128x128x8, .f32⟩
  | .hbm, ⟨6, _⟩ => ⟨S945x128, .f32⟩
  | .hbm, ⟨7, _⟩ => ⟨S524288x128, .f32⟩
  | .hbm, ⟨8, _⟩ => ⟨S65536x1024, .f32⟩
  | .hbm, ⟨9, _⟩ => ⟨S128x1024, .f32⟩
  | .hbm, ⟨10, _⟩ => ⟨S1024x128, .f32⟩
  | .hbm, ⟨11, _⟩ => ⟨S65536x128, .f32⟩
  | .hbm, ⟨12, _⟩ => ⟨S32768x128, .f32⟩
  | .hbm, ⟨13, _⟩ => ⟨S98304, .i32⟩
  | .hbm, ⟨14, _⟩ => ⟨S_, .i32⟩
  | .hbm, ⟨15, _⟩ => ⟨S_, .i32⟩
  | .hbm, ⟨16, _⟩ => ⟨S98304, .i32⟩
  | .hbm, ⟨17, _⟩ => ⟨S_, .i32⟩
  | .hbm, ⟨18, _⟩ => ⟨S98304, .i32⟩
  | .hbm, ⟨19, _⟩ => ⟨S98304, .i32⟩
  | .hbm, ⟨20, _⟩ => ⟨S98304, .i1⟩
  | .hbm, ⟨21, _⟩ => ⟨S98304, .i32⟩
  | .hbm, ⟨22, _⟩ => ⟨S_, .i32⟩
  | .hbm, ⟨23, _⟩ => ⟨S_, .i32⟩
  | .hbm, ⟨24, _⟩ => ⟨S98304, .i32⟩
  | .hbm, ⟨25, _⟩ => ⟨S_, .i32⟩
  | .hbm, ⟨26, _⟩ => ⟨S98304, .i32⟩
  | .hbm, ⟨27, _⟩ => ⟨S98304, .i32⟩
  | .hbm, ⟨28, _⟩ => ⟨S98304x1, .i1⟩
  | .hbm, ⟨29, _⟩ => ⟨S_, .i32⟩
  | .hbm, ⟨30, _⟩ => ⟨S98304, .i32⟩
  | .hbm, ⟨31, _⟩ => ⟨S98304, .i1⟩
  | .hbm, ⟨32, _⟩ => ⟨S_, .i32⟩
  | .hbm, ⟨33, _⟩ => ⟨S98304, .i32⟩
  | .hbm, ⟨34, _⟩ => ⟨S98304, .i32⟩
  | .hbm, ⟨35, _⟩ => ⟨S98304, .i32⟩
  | .hbm, ⟨36, _⟩ => ⟨S98304x1, .i32⟩
  | .hbm, ⟨37, _⟩ => ⟨S98304x128, .f32⟩
  | .hbm, ⟨38, _⟩ => ⟨S_, .i32⟩
  | .hbm, ⟨39, _⟩ => ⟨S98304, .i32⟩
  | .hbm, ⟨40, _⟩ => ⟨S98304, .i1⟩
  | .hbm, ⟨41, _⟩ => ⟨S_, .i32⟩
  | .hbm, ⟨42, _⟩ => ⟨S98304, .i32⟩
  | .hbm, ⟨43, _⟩ => ⟨S98304, .i32⟩
  | .hbm, ⟨44, _⟩ => ⟨S98304, .i32⟩
  | .hbm, ⟨45, _⟩ => ⟨S98304x1, .i32⟩
  | .hbm, ⟨46, _⟩ => ⟨S98304x128, .f32⟩
  | .hbm, ⟨47, _⟩ => ⟨S98304x128, .i1⟩
  | .hbm, ⟨48, _⟩ => ⟨S98304x128, .f32⟩
  | .hbm, ⟨49, _⟩ => ⟨S16384x128, .f32⟩
  | .hbm, ⟨50, _⟩ => ⟨S114688x128, .f32⟩
  | .hbm, ⟨51, _⟩ => ⟨S114688x1, .i32⟩
  | .hbm, ⟨52, _⟩ => ⟨S1x7, .i32⟩
  | .hbm, ⟨53, _⟩ => ⟨S114688x7, .i32⟩
  | .hbm, ⟨54, _⟩ => ⟨S114688x7, .i32⟩
  | .hbm, ⟨55, _⟩ => ⟨S114688x7, .i1⟩
  | .hbm, ⟨56, _⟩ => ⟨S114688x7, .f32⟩
  | .hbm, ⟨57, _⟩ => ⟨S114688x135, .f32⟩
  | .hbm, ⟨58, _⟩ => ⟨S1x802816, .i32⟩
  | .hbm, ⟨59, _⟩ => ⟨S802816, .i32⟩
  | .hbm, ⟨60, _⟩ => ⟨S1x802816, .i32⟩
  | .hbm, ⟨61, _⟩ => ⟨S802816, .i32⟩
  | .hbm, ⟨62, _⟩ => ⟨S_, .i32⟩
  | .hbm, ⟨63, _⟩ => ⟨S802816, .i32⟩
  | .hbm, ⟨64, _⟩ => ⟨S802816, .i32⟩
  | .hbm, ⟨65, _⟩ => ⟨S802816, .i32⟩
  | .hbm, ⟨66, _⟩ => ⟨S_, .i32⟩
  | .hbm, ⟨67, _⟩ => ⟨S802816, .i32⟩
  | .hbm, ⟨68, _⟩ => ⟨S802816, .i1⟩
  | .hbm, ⟨69, _⟩ => ⟨S_, .i32⟩
  | .hbm, ⟨70, _⟩ => ⟨S802816, .i32⟩
  | .hbm, ⟨71, _⟩ => ⟨S802816, .i32⟩
  | .hbm, ⟨72, _⟩ => ⟨S802816, .i32⟩
  | .hbm, ⟨73, _⟩ => ⟨S802816x1, .i32⟩
  | .hbm, ⟨74, _⟩ => ⟨S802816x135, .f32⟩
  | .hbm, ⟨75, _⟩ => ⟨S_, .f32⟩
  | .hbm, ⟨76, _⟩ => ⟨S802816x135, .f32⟩
  | .hbm, ⟨77, _⟩ => ⟨S802816x1, .i32⟩
  | .hbm, ⟨78, _⟩ => ⟨S802816x135, .f32⟩
  | .hbm, ⟨79, _⟩ => ⟨S114688x945, .f32⟩
  | .hbm, ⟨80, _⟩ => ⟨S114688x128, .f32⟩
  | _, _ => ⟨S573440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_call0_c : Ref sig .tc := ⟨.hbm, 14, rfl⟩
abbrev main_call0_call0_v0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_call0_c : Ref sig .tc := ⟨.hbm, 22, rfl⟩
abbrev main_call1_call0_v0 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]

class Facts₀ : Prop where
  slices_S573440x128_S524288x128_49152_0 : S573440x128.Slices ![49152, 0] S524288x128
  shapeCasts_S524288x128_S65536x1024 : S524288x128.ShapeCasts S65536x1024
  shapeCasts_S128x128x8_S128x1024 : S128x128x8.ShapeCasts S128x1024
  transposes_S128x1024_S1024x128_1_0 : S128x1024.Transposes [1, 0] S1024x128
  slices_S573440x128_S32768x128_16384_0 : S573440x128.Slices ![16384, 0] S32768x128
  natLt_1_32 : 1 < 32
  bcast_S_S_ : S_.BroadcastsInDim S_ (![] : Fin 0 → Fin S_.rank)
  reduceWindows_S98304_S98304_w98304s1p98303_0 : S98304.ReduceWindows (![98304] : Fin 1 → Nat) ![1] ![98303] ![0] S98304
  h_S_ : 0 < S_.numel
  bcast_S_S98304 : S_.BroadcastsInDim S98304 (![] : Fin 0 → Fin S98304.rank)
  bcast_S98304_S98304x1_0 : S98304.BroadcastsInDim S98304x1 (![0] : Fin 1 → Fin S98304x1.rank)
  bcast_S98304x1_S98304x128_0_1 : S98304x1.BroadcastsInDim S98304x128 (![0, 1] : Fin 2 → Fin S98304x128.rank)
  slices_S573440x128_S16384x128_0_0 : S573440x128.Slices ![0, 0] S16384x128
  concatenates_S16384x128_S98304x128_S114688x128_d0 : Shape.Concatenates [S16384x128, S98304x128] S114688x128 0
  bcast_S114688_S114688x1_0 : S114688.BroadcastsInDim S114688x1 (![0] : Fin 1 → Fin S114688x1.rank)
  bcast_S114688x1_S114688x7_0_1 : S114688x1.BroadcastsInDim S114688x7 (![0, 1] : Fin 2 → Fin S114688x7.rank)
  bcast_S1x7_S114688x7_0_1 : S1x7.BroadcastsInDim S114688x7 (![0, 1] : Fin 2 → Fin S114688x7.rank)
  concatenates_S114688x128_S114688x7_S114688x135_d1 : Shape.Concatenates [S114688x128, S114688x7] S114688x135 1
  slices_S2x802816_S1x802816_0_0 : S2x802816.Slices ![0, 0] S1x802816
  shapeCasts_S1x802816_S802816 : S1x802816.ShapeCasts S802816
  slices_S2x802816_S1x802816_1_0 : S2x802816.Slices ![1, 0] S1x802816
  bcast_S_S802816 : S_.BroadcastsInDim S802816 (![] : Fin 0 → Fin S802816.rank)
  bcast_S802816_S802816x1_0 : S802816.BroadcastsInDim S802816x1 (![0] : Fin 1 → Fin S802816x1.rank)
  bcast_S_S802816x135 : S_.BroadcastsInDim S802816x135 (![] : Fin 0 → Fin S802816x135.rank)
  shapeCasts_S802816x135_S114688x945 : S802816x135.ShapeCasts S114688x945
  dot_S65536x1024_S1024x128_S65536x128_1_0_0_1_n_n_wf : DotDims.WF S65536x1024 S1024x128 S65536x128 [1] [0] [0] [1] [] []
  gather_S32768x128_S98304x1_S98304x128_1_0_n_n_0_1_1128_wf : GatherDims.WF S32768x128 S98304x1 S98304x128 [1] [0] [] [0] [] 1 ![1, 128]
  gather_S65536x128_S98304x1_S98304x128_1_0_n_n_0_1_1128_wf : GatherDims.WF S65536x128 S98304x1 S98304x128 [1] [0] [] [0] [] 1 ![1, 128]
  gather_S114688x135_S802816x1_S802816x135_1_0_n_n_0_1_1135_wf : GatherDims.WF S114688x135 S802816x1 S802816x135 [1] [0] [] [0] [] 1 ![1, 135]
  scatter_S802816x135_S802816x1_S802816x135_1_0_0_1_wf : ScatterDims.WF S802816x135 S802816x1 S802816x135 [1] [0] [0] 1
  dot_S114688x945_S945x128_S114688x128_1_0_0_1_n_n_wf : DotDims.WF S114688x945 S945x128 S114688x128 [1] [0] [0] [1] [] []

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def gather_S32768x128_S98304x1_S98304x128_1_0_n_n_0_1_1128 : GatherDims S32768x128 S98304x1 S98304x128 where
  offsetDims := [1]
  collapsedSliceDims := [0]
  operandBatchingDims := []
  startIndicesBatchingDims := []
  startIndexMap := [0]
  indexVectorDim := 1
  sliceSizes := ![1, 128]
  wf := gather_S32768x128_S98304x1_S98304x128_1_0_n_n_0_1_1128_wf
def gather_S65536x128_S98304x1_S98304x128_1_0_n_n_0_1_1128 : GatherDims S65536x128 S98304x1 S98304x128 where
  offsetDims := [1]
  collapsedSliceDims := [0]
  operandBatchingDims := []
  startIndicesBatchingDims := []
  startIndexMap := [0]
  indexVectorDim := 1
  sliceSizes := ![1, 128]
  wf := gather_S65536x128_S98304x1_S98304x128_1_0_n_n_0_1_1128_wf
def gather_S114688x135_S802816x1_S802816x135_1_0_n_n_0_1_1135 : GatherDims S114688x135 S802816x1 S802816x135 where
  offsetDims := [1]
  collapsedSliceDims := [0]
  operandBatchingDims := []
  startIndicesBatchingDims := []
  startIndexMap := [0]
  indexVectorDim := 1
  sliceSizes := ![1, 135]
  wf := gather_S114688x135_S802816x1_S802816x135_1_0_n_n_0_1_1135_wf
def scatter_S802816x135_S802816x1_S802816x135_1_0_0_1 : ScatterDims S802816x135 S802816x1 S802816x135 where
  updateWindowDims := [1]
  insertedWindowDims := [0]
  scatterDimsToOperandDims := [0]
  indexVectorDim := 1
  wf := scatter_S802816x135_S802816x1_S802816x135_1_0_0_1_wf
def dot_S114688x945_S945x128_S114688x128_1_0_0_1_n_n : DotDims S114688x945 S945x128 S114688x128 where
  lhsContracting := [1]
  rhsContracting := [0]
  lhsNonContracting := [0]
  rhsNonContracting := [1]
  lhsBatch := []
  rhsBatch := []
  wf := dot_S114688x945_S945x128_S114688x128_1_0_0_1_n_n_wf

class Facts : Prop extends Facts₀ where

variable [Facts]
-- ==== Proof.KernelRun.lean ====
/-
  The idealized kernel's run with its result named.  The two regions and the host stretches between them leave
  every unscoped buffer of a core at the contents the segment-by-segment fold reaches (the fold's last stage);
  read at the result buffer and at the seven argument buffers this is the run's post: the result at the last
  stage's value, the arguments as launched.
-/
import proofs.«127156_j2224793059396_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last stage of
    the fold through the segments and the argument buffers as launched. -/
theorem run_value : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«127156_j2224793059396_1_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.RegionValue.lean ====
/-
  The two tiled matrix products, each read as ONE whole-array function.  Each region walks its left operand in
  blocks of 4096 rows, keeps the right operand whole, and writes the product of the row block with the right
  operand into the same rows of its result.  A row of a matrix product depends only on that row of the left
  factor, so the blocks written at the grid's points are the row blocks of the whole product, and since the
  blocks tile the result the result array ends as the whole product of the two operand arrays.
-/
import proofs.«127156_j2224793059396_1_alg».proof.Proof.Gen.KernelIdeal.Frame
import proofs.«127156_j2224793059396_1_alg».proof.Proof.LibMatmulBlock
import Idealize.ShloMosaic.Lib.Pipeline.Value

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Cert.LibMatmul

variable (V : (c : Dev nD) → (b : Ref sig .tc) → Buf (Elt Ideal) ((c : Thread nD τ).loc b))

theorem hz : (![0, 0] : Fin 2 → Nat) = fun _ => 0 := funext fun a => by fin_cases a <;> rfl

/-! ## Region 0: a row-tiled product of 65536×1024 by 1024×128, 4096 rows per grid point -/

/-- The body's stored value is the matrix product of its two loaded blocks. -/
theorem pay0_eq (x0 : Vec Ideal S4096x1024 .bf16) (x1 : Vec Ideal S1024x128 .bf16) : k0_pay1 x0 x1 = MM x0 x1 := by
  unfold k0_pay1
  simp only [shapeCast_self]
  exact matmul_zero_eq dot_S4096x1024_S1024x128_S4096x128_1_0_0_1_n_n rfl rfl rfl rfl rfl rfl none x0 x1

/-- The printed index maps over the grid: the left operand's and the result's blocks are the point's row block,
    the right operand is fetched whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region finds them:
    rows `4096·t … 4096·t + 4095` of a product depend on those rows of the left factor only. -/
theorem flushed0_eq (c : Dev nD) (t : Fin cfg0.N) :
    (dat0 V c).flushed 2 t = ((cfg0.win 2).blk t).view.read (Elt Ideal) (MM (V c main_v2) (V c main_v5)) := by
  show (cfg0.win 2).cut (grid0.coords t) ((dat0 V c).after 2 t) = _
  rw [after0_2]
  unfold out0_2
  rw [View.canon_unit_zero hz]
  simp only [View.ld_unit_zero (S := S4096x1024) hz, View.ld_unit_zero (S := S1024x128) hz]
  rw [pay0_eq]
  obtain ⟨e0, e1, e2, e3, e4, e5⟩ := idx_facts0 t
  funext j
  show MM (fun y => V c main_v2 (((cfg0.win 0).blk t).view.emb y)) (fun y => V c main_v5 (((cfg0.win 1).blk t).view.emb y)) j
      = MM (V c main_v2) (V c main_v5) (((cfg0.win 2).blk t).view.emb j)
  refine MM_block (V c main_v2) (V c main_v5) _ _ _ (4096 * t.val) 0 ?_ ?_ ?_ ?_ ?_ ?_ j
  · intro y; show win0_0.index t (0 : Fin 2) * 4096 + 1 * (y 0).val = _; rw [e0]; omega
  · intro y; show win0_0.index t (1 : Fin 2) * 1024 + 1 * (y 1).val = _; rw [e1]; omega
  · intro y; show win0_1.index t (0 : Fin 2) * 1024 + 1 * (y 0).val = _; rw [e2]; omega
  · intro y; show win0_1.index t (1 : Fin 2) * 128 + 1 * (y 1).val = _; rw [e3]; omega
  · intro y; show win0_2.index t (0 : Fin 2) * 4096 + 1 * (y 0).val = _; rw [e4]; omega
  · intro y; show win0_2.index t (1 : Fin 2) * 128 + 1 * (y 1).val = _; rw [e5]; omega

/-- An index of the result array is in point `t`'s block iff each coordinate is in the block's range on its axis. -/
theorem mem_blk0 (t : Fin cfg0.N) (i : S65536x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v6).slice (win0_2.rect t)).set ↔ _
  rw [View.set_slice_whole, Rect.mem_set_unit]
  exact Iff.rfl

/-- Every row of the result lies in the block of the point `row / 4096`. -/
theorem cover0 (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : grid0.N = 16 := N_0
  have ht : (i 0).val / 4096 < cfg0.N := by show (i 0).val / 4096 < grid0.N; rw [hN]; omega
  obtain ⟨-, -, -, -, e4, e5⟩ := idx_facts0 ⟨(i 0).val / 4096, ht⟩
  refine ⟨⟨(i 0).val / 4096, ht⟩, flush0_2 _, ?_⟩
  rw [mem_blk0]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, ht⟩ (1 : Fin 2) * 128 ≤ (i 1).val ∧ (i 1).val < win0_2.index ⟨(i 0).val / 4096, ht⟩ (1 : Fin 2) * 128 + 128
    rw [e5]; omega

/-- The result array after the region: the whole product of the two operand arrays as the region finds them. -/
theorem final0 (c : Dev nD) : (dat0 V c).arrAt 2 cfg0.N = MM (V c main_v2) (V c main_v5) :=
  (dat0 V c).arrAt_eq_of_cover 2 (MM (V c main_v2) (V c main_v5)) (fun t _ => flushed0_eq V c t) cover0

/-! ## Region 1: a row-tiled product of 114688×945 by 945×128, 4096 rows per grid point -/

/-- The body's stored value is the matrix product of its two loaded blocks. -/
theorem pay1_eq (x0 : Vec Ideal S4096x945 .bf16) (x1 : Vec Ideal S945x128 .bf16) : k1_pay1 x0 x1 = MM x0 x1 := by
  unfold k1_pay1
  simp only [shapeCast_self]
  exact matmul_zero_eq dot_S4096x945_S945x128_S4096x128_1_0_0_1_n_n rfl rfl rfl rfl rfl rfl none x0 x1

/-- The printed index maps over the grid: the left operand's and the result's blocks are the point's row block,
    the right operand is fetched whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two arrays as the region finds them:
    rows `4096·t … 4096·t + 4095` of a product depend on those rows of the left factor only. -/
theorem flushed1_eq (c : Dev nD) (t : Fin cfg1.N) :
    (dat1 V c).flushed 2 t = ((cfg1.win 2).blk t).view.read (Elt Ideal) (MM (V c main_v55) (V c main_v56)) := by
  show (cfg1.win 2).cut (grid1.coords t) ((dat1 V c).after 2 t) = _
  rw [after1_2]
  unfold out1_2
  rw [View.canon_unit_zero hz]
  simp only [View.ld_unit_zero (S := S4096x945) hz, View.ld_unit_zero (S := S945x128) hz]
  rw [pay1_eq]
  obtain ⟨e0, e1, e2, e3, e4, e5⟩ := idx_facts1 t
  funext j
  show MM (fun y => V c main_v55 (((cfg1.win 0).blk t).view.emb y)) (fun y => V c main_v56 (((cfg1.win 1).blk t).view.emb y)) j
      = MM (V c main_v55) (V c main_v56) (((cfg1.win 2).blk t).view.emb j)
  refine MM_block (V c main_v55) (V c main_v56) _ _ _ (4096 * t.val) 0 ?_ ?_ ?_ ?_ ?_ ?_ j
  · intro y; show win1_0.index t (0 : Fin 2) * 4096 + 1 * (y 0).val = _; rw [e0]; omega
  · intro y; show win1_0.index t (1 : Fin 2) * 945 + 1 * (y 1).val = _; rw [e1]; omega
  · intro y; show win1_1.index t (0 : Fin 2) * 945 + 1 * (y 0).val = _; rw [e2]; omega
  · intro y; show win1_1.index t (1 : Fin 2) * 128 + 1 * (y 1).val = _; rw [e3]; omega
  · intro y; show win1_2.index t (0 : Fin 2) * 4096 + 1 * (y 0).val = _; rw [e4]; omega
  · intro y; show win1_2.index t (1 : Fin 2) * 128 + 1 * (y 1).val = _; rw [e5]; omega

/-- An index of the result array is in point `t`'s block iff each coordinate is in the block's range on its axis. -/
theorem mem_blk1 (t : Fin cfg1.N) (i : S114688x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v57).slice (win1_2.rect t)).set ↔ _
  rw [View.set_slice_whole, Rect.mem_set_unit]
  exact Iff.rfl

/-- Every row of the result lies in the block of the point `row / 4096`. -/
theorem cover1 (i : S114688x128.Idx) :
    ∃ t : Fin cfg1.N, (cfg1.win 2).flush t = true ∧ i ∈ ((cfg1.win 2).blk t).view.set := by
  have hi0 : (i 0).val < 114688 := (i 0).isLt
  have hi1 : (i 1).val < 128 := (i 1).isLt
  have hN : grid1.N = 28 := N_1
  have ht : (i 0).val / 4096 < cfg1.N := by show (i 0).val / 4096 < grid1.N; rw [hN]; omega
  obtain ⟨-, -, -, -, e4, e5⟩ := idx_facts1 ⟨(i 0).val / 4096, ht⟩
  refine ⟨⟨(i 0).val / 4096, ht⟩, flush1_2 _, ?_⟩
  rw [mem_blk1]
  intro a
  match a with
  | ⟨0, _⟩ =>
    show win1_2.index ⟨(i 0).val / 4096, ht⟩ (0 : Fin 2) * 4096 ≤ (i 0).val ∧ (i 0).val < win1_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win1_2.index ⟨(i 0).val / 4096, ht⟩ (1 : Fin 2) * 128 ≤ (i 1).val ∧ (i 1).val < win1_2.index ⟨(i 0).val / 4096, ht⟩ (1 : Fin 2) * 128 + 128
    rw [e5]; omega

/-- The result array after the region: the whole product of the two operand arrays as the region finds them. -/
theorem final1 (c : Dev nD) : (dat1 V c).arrAt 2 cfg1.N = MM (V c main_v55) (V c main_v56) :=
  (dat1 V c).arrAt_eq_of_cover 2 (MM (V c main_v55) (V c main_v56)) (fun t _ => flushed1_eq V c t) cover1

end Cert.KernelIdeal.RegionValue

end
-- ==== Proof.RefRun.lean ====
/-
  The run of the reference program. Its @main is a straight line of StableHLO operations once its four calls are
  unfolded: `cumsum` of the mask and `cumsum_1` of its complement (each a widening of the one-bit mask to i32, then
  the callee `cumsum_0`: the scalar zero, its rank-zero broadcast, and the windowed sum over the whole prefix),
  `_where` (the column mask broadcast across the 128 lanes, then the select) and `_one_hot` (the index column, the
  iota of seven, their two broadcasts, the equality test and its conversion to f32). Written out, that is 74
  operations, each over the buffers of the call it belongs to; `ops` is that list, `main_eq` says @main is the
  sequence of it, and `run_main` reads the run back: every weakly fair execution terminates with every TensorCore
  buffer at the fold of the operations' results over its launch contents.

  The list is also given in three consecutive pieces (`ops_split`): the five operations ending at the first matrix
  product (`opsA`), the sixty-eight from there to the reshape that feeds the second matrix product (`opsB`), and
  that product alone (`opsC`).

  No operation is evaluated here: the windowed sums, the gathers, the scatter-add and the matrix products stay the
  named functions of their operands.
-/
import proofs.«127156_j2224793059396_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first five operations: the slice of rows 49152 … 573439 of the first argument, its reshape to 65536×1024,
    the weight's reshape to 128×1024 and transpose to 1024×128, and their matrix product (65536×128). -/
abbrev opsA : List (HloOp τ sig (Elt F)) :=
  [ unary main_arg0 main_v0 ((extractStridedSlice S524288x128 ![49152, 0] · slices_S573440x128_S524288x128_49152_0) : (⟨S573440x128, .f32⟩ : BufTy).Contents (Elt F) → (⟨S524288x128, .f32⟩ : BufTy).Contents (Elt F)),
    reshape main_v0 main_v1 rfl shapeCasts_S524288x128_S65536x1024,
    reshape main_arg5 main_v2 rfl shapeCasts_S128x128x8_S128x1024,
    unary main_v2 main_v3 ((transpose S1024x128 [1, 0] · transposes_S128x1024_S1024x128_1_0) : (⟨S128x1024, .f32⟩ : BufTy).Contents (Elt F) → (⟨S1024x128, .f32⟩ : BufTy).Contents (Elt F)),
    binary main_v1 main_v3 main_v4 ((fun l r => Host.dotGeneral dot_S65536x1024_S1024x128_S65536x128_1_0_0_1_n_n none l r) : (⟨S65536x1024, .f32⟩ : BufTy).Contents (Elt F) → (⟨S1024x128, .f32⟩ : BufTy).Contents (Elt F) → (⟨S65536x128, .f32⟩ : BufTy).Contents (Elt F)) ]

/-- The sixty-eight operations between the two matrix products, in program order: the slice of rows
    16384 … 49151; the two prefix counts (of the mask and of its complement), each less one, wrapped where negative,
    and the row gathers they index; the select between the two gathered blocks; the first 16384 rows put back in
    front; the one-hot columns appended (135 columns); the two index rows, the combined slot index `7·row + type`,
    the wrapped source index, the gather of source rows, the scatter-add of them into a zero table at the slot
    index, and the table's reshape to 114688×945. -/
abbrev opsB : List (HloOp τ sig (Elt F)) :=
  [ unary main_arg0 main_v5 ((extractStridedSlice S32768x128 ![16384, 0] · slices_S573440x128_S32768x128_16384_0) : (⟨S573440x128, .f32⟩ : BufTy).Contents (Elt F) → (⟨S32768x128, .f32⟩ : BufTy).Contents (Elt F)),
    TRef.unary (.of main_arg1 : TRef sig ⟨S98304, .i1⟩) (.of main_call0_v0 : TRef sig ⟨S98304, .i32⟩) (extui 32 · natLt_1_32),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_call0_v0 : TRef sig ⟨S98304, .i32⟩) (.of main_call0_call0_v0 : TRef sig ⟨S_, .i32⟩) (.of main_v6 : TRef sig ⟨S98304, .i32⟩) (fun x v => Host.reduceWindow IntOp.addi ![98304] ![1] ![98303] ![0] x v reduceWindows_S98304_S98304_w98304s1p98303_0 h_S_),
    nullary main_c (constantI S_ 32 1#32),
    unary main_c main_v7 (broadcastInDim S98304 ![] bcast_S_S98304 : (⟨S_, .i32⟩ : BufTy).Contents (Elt F) → (⟨S98304, .i32⟩ : BufTy).Contents (Elt F)),
    binary main_v6 main_v7 main_v8 (subi : (⟨S98304, .i32⟩ : BufTy).Contents (Elt F) → (⟨S98304, .i32⟩ : BufTy).Contents (Elt F) → (⟨S98304, .i32⟩ : BufTy).Contents (Elt F)),
    unary main_arg1 main_v9 (noti : (⟨S98304, .i1⟩ : BufTy).Contents (Elt F) → (⟨S98304, .i1⟩ : BufTy).Contents (Elt F)),
    TRef.unary (.of main_v9 : TRef sig ⟨S98304, .i1⟩) (.of main_call1_v0 : TRef sig ⟨S98304, .i32⟩) (extui 32 · natLt_1_32),
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_call1_v0 : TRef sig ⟨S98304, .i32⟩) (.of main_call1_call0_v0 : TRef sig ⟨S_, .i32⟩) (.of main_v10 : TRef sig ⟨S98304, .i32⟩) (fun x v => Host.reduceWindow IntOp.addi ![98304] ![1] ![98303] ![0] x v reduceWindows_S98304_S98304_w98304s1p98303_0 h_S_),
    nullary main_c_0 (constantI S_ 32 1#32),
    unary main_c_0 main_v11 (broadcastInDim S98304 ![] bcast_S_S98304 : (⟨S_, .i32⟩ : BufTy).Contents (Elt F) → (⟨S98304, .i32⟩ : BufTy).Contents (Elt F)),
    binary main_v10 main_v11 main_v12 (subi : (⟨S98304, .i32⟩ : BufTy).Contents (Elt F) → (⟨S98304, .i32⟩ : BufTy).Contents (Elt F) → (⟨S98304, .i32⟩ : BufTy).Contents (Elt F)),
    unary main_arg1 main_v13 (broadcastInDim S98304x1 ![0] bcast_S98304_S98304x1_0 : (⟨S98304, .i1⟩ : BufTy).Contents (Elt F) → (⟨S98304x1, .i1⟩ : BufTy).Contents (Elt F)),
    nullary main_c_1 (constantI S_ 32 0#32),
    unary main_c_1 main_v14 (broadcastInDim S98304 ![] bcast_S_S98304 : (⟨S_, .i32⟩ : BufTy).Contents (Elt F) → (⟨S98304, .i32⟩ : BufTy).Contents (Elt F)),
    binary main_v8 main_v14 main_v15 (cmpi .slt : (⟨S98304, .i32⟩ : BufTy).Contents (Elt F) → (⟨S98304, .i32⟩ : BufTy).Contents (Elt F) → (⟨S98304, .i1⟩ : BufTy).Contents (Elt F)),
    nullary main_c_2 (constantI S_ 32 32768#32),
    unary main_c_2 main_v16 (broadcastInDim S98304 ![] bcast_S_S98304 : (⟨S_, .i32⟩ : BufTy).Contents (Elt F) → (⟨S98304, .i32⟩ : BufTy).Contents (Elt F)),
    binary main_v8 main_v16 main_v17 (addi : (⟨S98304, .i32⟩ : BufTy).Contents (Elt F) → (⟨S98304, .i32⟩ : BufTy).Contents (Elt F) → (⟨S98304, .i32⟩ : BufTy).Contents (Elt F)),
    ternary main_v15 main_v17 main_v8 main_v18 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v18 main_v19 (broadcastInDim S98304x1 ![0] bcast_S98304_S98304x1_0 : (⟨S98304, .i32⟩ : BufTy).Contents (Elt F) → (⟨S98304x1, .i32⟩ : BufTy).Contents (Elt F)),
    binary main_v5 main_v19 main_v20 ((fun x i => Host.gather gather_S32768x128_S98304x1_S98304x128_1_0_n_n_0_1_1128 x i) : (⟨S32768x128, .f32⟩ : BufTy).Contents (Elt F) → (⟨S98304x1, .i32⟩ : BufTy).Contents (Elt F) → (⟨S98304x128, .f32⟩ : BufTy).Contents (Elt F)),
    nullary main_c_3 (constantI S_ 32 0#32),
    unary main_c_3 main_v21 (broadcastInDim S98304 ![] bcast_S_S98304 : (⟨S_, .i32⟩ : BufTy).Contents (Elt F) → (⟨S98304, .i32⟩ : BufTy).Contents (Elt F)),
    binary main_v12 main_v21 main_v22 (cmpi .slt : (⟨S98304, .i32⟩ : BufTy).Contents (Elt F) → (⟨S98304, .i32⟩ : BufTy).Contents (Elt F) → (⟨S98304, .i1⟩ : BufTy).Contents (Elt F)),
    nullary main_c_4 (constantI S_ 32 65536#32),
    unary main_c_4 main_v23 (broadcastInDim S98304 ![] bcast_S_S98304 : (⟨S_, .i32⟩ : BufTy).Contents (Elt F) → (⟨S98304, .i32⟩ : BufTy).Contents (Elt F)),
    binary main_v12 main_v23 main_v24 (addi : (⟨S98304, .i32⟩ : BufTy).Contents (Elt F) → (⟨S98304, .i32⟩ : BufTy).Contents (Elt F) → (⟨S98304, .i32⟩ : BufTy).Contents (Elt F)),
    ternary main_v22 main_v24 main_v12 main_v25 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v25 main_v26 (broadcastInDim S98304x1 ![0] bcast_S98304_S98304x1_0 : (⟨S98304, .i32⟩ : BufTy).Contents (Elt F) → (⟨S98304x1, .i32⟩ : BufTy).Contents (Elt F)),
    binary main_v4 main_v26 main_v27 ((fun x i => Host.gather gather_S65536x128_S98304x1_S98304x128_1_0_n_n_0_1_1128 x i) : (⟨S65536x128, .f32⟩ : BufTy).Contents (Elt F) → (⟨S98304x1, .i32⟩ : BufTy).Contents (Elt F) → (⟨S98304x128, .f32⟩ : BufTy).Contents (Elt F)),
    TRef.unary (.of main_v13 : TRef sig ⟨S98304x1, .i1⟩) (.of main_call2_v0 : TRef sig ⟨S98304x128, .i1⟩) (broadcastInDim S98304x128 ![0, 1] bcast_S98304x1_S98304x128_0_1),
    TRef.ternary (.of main_call2_v0 : TRef sig ⟨S98304x128, .i1⟩) (.of main_v20 : TRef sig ⟨S98304x128, .f32⟩) (.of main_v27 : TRef sig ⟨S98304x128, .f32⟩) (.of main_v28 : TRef sig ⟨S98304x128, .f32⟩) select,
    unary main_arg0 main_v29 ((extractStridedSlice S16384x128 ![0, 0] · slices_S573440x128_S16384x128_0_0) : (⟨S573440x128, .f32⟩ : BufTy).Contents (Elt F) → (⟨S16384x128, .f32⟩ : BufTy).Contents (Elt F)),
    binary main_v29 main_v28 main_v30 ((fun a b => concatenate S114688x128 0 [⟨S16384x128, a⟩, ⟨S98304x128, b⟩] concatenates_S16384x128_S98304x128_S114688x128_d0) : (⟨S16384x128, .f32⟩ : BufTy).Contents (Elt F) → (⟨S98304x128, .f32⟩ : BufTy).Contents (Elt F) → (⟨S114688x128, .f32⟩ : BufTy).Contents (Elt F)),
    TRef.unary (.of main_arg4 : TRef sig ⟨S114688, .i32⟩) (.of main_call3_v0 : TRef sig ⟨S114688x1, .i32⟩) (broadcastInDim S114688x1 ![0] bcast_S114688_S114688x1_0),
    TRef.nullary (.of main_call3_v1 : TRef sig ⟨S1x7, .i32⟩) (iotaInDim S1x7 32 1),
    TRef.unary (.of main_call3_v0 : TRef sig ⟨S114688x1, .i32⟩) (.of main_call3_v2 : TRef sig ⟨S114688x7, .i32⟩) (broadcastInDim S114688x7 ![0, 1] bcast_S114688x1_S114688x7_0_1),
    TRef.unary (.of main_call3_v1 : TRef sig ⟨S1x7, .i32⟩) (.of main_call3_v3 : TRef sig ⟨S114688x7, .i32⟩) (broadcastInDim S114688x7 ![0, 1] bcast_S1x7_S114688x7_0_1),
    TRef.binary (.of main_call3_v2 : TRef sig ⟨S114688x7, .i32⟩) (.of main_call3_v3 : TRef sig ⟨S114688x7, .i32⟩) (.of main_call3_v4 : TRef sig ⟨S114688x7, .i1⟩) (cmpi .eq),
    TRef.unary (.of main_call3_v4 : TRef sig ⟨S114688x7, .i1⟩) (.of main_v31 : TRef sig ⟨S114688x7, .f32⟩) (uitofp .f32),
    binary main_v30 main_v31 main_v32 ((fun a b => concatenate S114688x135 1 [⟨S114688x128, a⟩, ⟨S114688x7, b⟩] concatenates_S114688x128_S114688x7_S114688x135_d1) : (⟨S114688x128, .f32⟩ : BufTy).Contents (Elt F) → (⟨S114688x7, .f32⟩ : BufTy).Contents (Elt F) → (⟨S114688x135, .f32⟩ : BufTy).Contents (Elt F)),
    unary main_arg2 main_v33 ((extractStridedSlice S1x802816 ![0, 0] · slices_S2x802816_S1x802816_0_0) : (⟨S2x802816, .i32⟩ : BufTy).Contents (Elt F) → (⟨S1x802816, .i32⟩ : BufTy).Contents (Elt F)),
    reshape main_v33 main_v34 rfl shapeCasts_S1x802816_S802816,
    unary main_arg2 main_v35 ((extractStridedSlice S1x802816 ![1, 0] · slices_S2x802816_S1x802816_1_0) : (⟨S2x802816, .i32⟩ : BufTy).Contents (Elt F) → (⟨S1x802816, .i32⟩ : BufTy).Contents (Elt F)),
    reshape main_v35 main_v36 rfl shapeCasts_S1x802816_S802816,
    nullary main_c_5 (constantI S_ 32 7#32),
    unary main_c_5 main_v37 (broadcastInDim S802816 ![] bcast_S_S802816 : (⟨S_, .i32⟩ : BufTy).Contents (Elt F) → (⟨S802816, .i32⟩ : BufTy).Contents (Elt F)),
    binary main_v34 main_v37 main_v38 (muli : (⟨S802816, .i32⟩ : BufTy).Contents (Elt F) → (⟨S802816, .i32⟩ : BufTy).Contents (Elt F) → (⟨S802816, .i32⟩ : BufTy).Contents (Elt F)),
    binary main_v38 main_arg3 main_v39 (addi : (⟨S802816, .i32⟩ : BufTy).Contents (Elt F) → (⟨S802816, .i32⟩ : BufTy).Contents (Elt F) → (⟨S802816, .i32⟩ : BufTy).Contents (Elt F)),
    nullary main_c_6 (constantI S_ 32 0#32),
    unary main_c_6 main_v40 (broadcastInDim S802816 ![] bcast_S_S802816 : (⟨S_, .i32⟩ : BufTy).Contents (Elt F) → (⟨S802816, .i32⟩ : BufTy).Contents (Elt F)),
    binary main_v36 main_v40 main_v41 (cmpi .slt : (⟨S802816, .i32⟩ : BufTy).Contents (Elt F) → (⟨S802816, .i32⟩ : BufTy).Contents (Elt F) → (⟨S802816, .i1⟩ : BufTy).Contents (Elt F)),
    nullary main_c_7 (constantI S_ 32 114688#32),
    unary main_c_7 main_v42 (broadcastInDim S802816 ![] bcast_S_S802816 : (⟨S_, .i32⟩ : BufTy).Contents (Elt F) → (⟨S802816, .i32⟩ : BufTy).Contents (Elt F)),
    binary main_v36 main_v42 main_v43 (addi : (⟨S802816, .i32⟩ : BufTy).Contents (Elt F) → (⟨S802816, .i32⟩ : BufTy).Contents (Elt F) → (⟨S802816, .i32⟩ : BufTy).Contents (Elt F)),
    ternary main_v41 main_v43 main_v36 main_v44 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    unary main_v44 main_v45 (broadcastInDim S802816x1 ![0] bcast_S802816_S802816x1_0 : (⟨S802816, .i32⟩ : BufTy).Contents (Elt F) → (⟨S802816x1, .i32⟩ : BufTy).Contents (Elt F)),
    binary main_v32 main_v45 main_v46 ((fun x i => Host.gather gather_S114688x135_S802816x1_S802816x135_1_0_n_n_0_1_1135 x i) : (⟨S114688x135, .f32⟩ : BufTy).Contents (Elt F) → (⟨S802816x1, .i32⟩ : BufTy).Contents (Elt F) → (⟨S802816x135, .f32⟩ : BufTy).Contents (Elt F)),
    nullary main_cst (constant S_ .f32 0x00000000#32),
    unary main_cst main_v47 (broadcastInDim S802816x135 ![] bcast_S_S802816x135 : (⟨S_, .f32⟩ : BufTy).Contents (Elt F) → (⟨S802816x135, .f32⟩ : BufTy).Contents (Elt F)),
    unary main_v39 main_v48 (broadcastInDim S802816x1 ![0] bcast_S802816_S802816x1_0 : (⟨S802816, .i32⟩ : BufTy).Contents (Elt F) → (⟨S802816x1, .i32⟩ : BufTy).Contents (Elt F)),
    ternary main_v47 main_v48 main_v46 main_v49 ((fun x i u => Host.scatterAdd scatter_S802816x135_S802816x1_S802816x135_1_0_0_1 x i u) : (⟨S802816x135, .f32⟩ : BufTy).Contents (Elt F) → (⟨S802816x1, .i32⟩ : BufTy).Contents (Elt F) → (⟨S802816x135, .f32⟩ : BufTy).Contents (Elt F) → (⟨S802816x135, .f32⟩ : BufTy).Contents (Elt F)),
    reshape main_v49 main_v50 rfl shapeCasts_S802816x135_S114688x945 ]

/-- The last operation: the matrix product of the reshaped table with the last argument (114688×128). -/
abbrev opsC : List (HloOp τ sig (Elt F)) :=
  [ binary main_v50 main_arg6 main_v51 ((fun l r => Host.dotGeneral dot_S114688x945_S945x128_S114688x128_1_0_0_1_n_n none l r) : (⟨S114688x945, .f32⟩ : BufTy).Contents (Elt F) → (⟨S945x128, .f32⟩ : BufTy).Contents (Elt F) → (⟨S114688x128, .f32⟩ : BufTy).Contents (Elt F)) ]

/-- @main's 74 operations in order, the calls unfolded: an operation of a called function is written over that
    call's buffers, its formal arguments replaced by the typed references the call site passes. -/
abbrev ops : List (HloOp τ sig (Elt F)) :=
  [ unary main_arg0 main_v0 ((extractStridedSlice S524288x128 ![49152, 0] · slices_S573440x128_S524288x128_49152_0) : (⟨S573440x128, .f32⟩ : BufTy).Contents (Elt F) → (⟨S524288x128, .f32⟩ : BufTy).Contents (Elt F)),
    reshape main_v0 main_v1 rfl shapeCasts_S524288x128_S65536x1024,
    reshape main_arg5 main_v2 rfl shapeCasts_S128x128x8_S128x1024,
    unary main_v2 main_v3 ((transpose S1024x128 [1, 0] · transposes_S128x1024_S1024x128_1_0) : (⟨S128x1024, .f32⟩ : BufTy).Contents (Elt F) → (⟨S1024x128, .f32⟩ : BufTy).Contents (Elt F)),
    binary main_v1 main_v3 main_v4 ((fun l r => Host.dotGeneral dot_S65536x1024_S1024x128_S65536x128_1_0_0_1_n_n none l r) : (⟨S65536x1024, .f32⟩ : BufTy).Contents (Elt F) → (⟨S1024x128, .f32⟩ : BufTy).Contents (Elt F) → (⟨S65536x128, .f32⟩ : BufTy).Contents (Elt F)),
    unary main_arg0 main_v5 ((extractStridedSlice S32768x128 ![16384, 0] · slices_S573440x128_S32768x128_16384_0) : (⟨S573440x128, .f32⟩ : BufTy).Contents (Elt F) → (⟨S32768x128, .f32⟩ : BufTy).Contents (Elt F)),
    TRef.unary (.of main_arg1 : TRef sig ⟨S98304, .i1⟩) (.of main_call0_v0 : TRef sig ⟨S98304, .i32⟩) (extui 32 · natLt_1_32),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_call0_v0 : TRef sig ⟨S98304, .i32⟩) (.of main_call0_call0_v0 : TRef sig ⟨S_, .i32⟩) (.of main_v6 : TRef sig ⟨S98304, .i32⟩) (fun x v => Host.reduceWindow IntOp.addi ![98304] ![1] ![98303] ![0] x v reduceWindows_S98304_S98304_w98304s1p98303_0 h_S_),
    nullary main_c (constantI S_ 32 1#32),
    unary main_c main_v7 (broadcastInDim S98304 ![] bcast_S_S98304 : (⟨S_, .i32⟩ : BufTy).Contents (Elt F) → (⟨S98304, .i32⟩ : BufTy).Contents (Elt F)),
    binary main_v6 main_v7 main_v8 (subi : (⟨S98304, .i32⟩ : BufTy).Contents (Elt F) → (⟨S98304, .i32⟩ : BufTy).Contents (Elt F) → (⟨S98304, .i32⟩ : BufTy).Contents (Elt F)),
    unary main_arg1 main_v9 (noti : (⟨S98304, .i1⟩ : BufTy).Contents (Elt F) → (⟨S98304, .i1⟩ : BufTy).Contents (Elt F)),
    TRef.unary (.of main_v9 : TRef sig ⟨S98304, .i1⟩) (.of main_call1_v0 : TRef sig ⟨S98304, .i32⟩) (extui 32 · natLt_1_32),
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_call1_v0 : TRef sig ⟨S98304, .i32⟩) (.of main_call1_call0_v0 : TRef sig ⟨S_, .i32⟩) (.of main_v10 : TRef sig ⟨S98304, .i32⟩) (fun x v => Host.reduceWindow IntOp.addi ![98304] ![1] ![98303] ![0] x v reduceWindows_S98304_S98304_w98304s1p98303_0 h_S_),
    nullary main_c_0 (constantI S_ 32 1#32),
    unary main_c_0 main_v11 (broadcastInDim S98304 ![] bcast_S_S98304 : (⟨S_, .i32⟩ : BufTy).Contents (Elt F) → (⟨S98304, .i32⟩ : BufTy).Contents (Elt F)),
    binary main_v10 main_v11 main_v12 (subi : (⟨S98304, .i32⟩ : BufTy).Contents (Elt F) → (⟨S98304, .i32⟩ : BufTy).Contents (Elt F) → (⟨S98304, .i32⟩ : BufTy).Contents (Elt F)),
    unary main_arg1 main_v13 (broadcastInDim S98304x1 ![0] bcast_S98304_S98304x1_0 : (⟨S98304, .i1⟩ : BufTy).Contents (Elt F) → (⟨S98304x1, .i1⟩ : BufTy).Contents (Elt F)),
    nullary main_c_1 (constantI S_ 32 0#32),
    unary main_c_1 main_v14 (broadcastInDim S98304 ![] bcast_S_S98304 : (⟨S_, .i32⟩ : BufTy).Contents (Elt F) → (⟨S98304, .i32⟩ : BufTy).Contents (Elt F)),
    binary main_v8 main_v14 main_v15 (cmpi .slt : (⟨S98304, .i32⟩ : BufTy).Contents (Elt F) → (⟨S98304, .i32⟩ : BufTy).Contents (Elt F) → (⟨S98304, .i1⟩ : BufTy).Contents (Elt F)),
    nullary main_c_2 (constantI S_ 32 32768#32),
    unary main_c_2 main_v16 (broadcastInDim S98304 ![] bcast_S_S98304 : (⟨S_, .i32⟩ : BufTy).Contents (Elt F) → (⟨S98304, .i32⟩ : BufTy).Contents (Elt F)),
    binary main_v8 main_v16 main_v17 (addi : (⟨S98304, .i32⟩ : BufTy).Contents (Elt F) → (⟨S98304, .i32⟩ : BufTy).Contents (Elt F) → (⟨S98304, .i32⟩ : BufTy).Contents (Elt F)),
    ternary main_v15 main_v17 main_v8 main_v18 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v18 main_v19 (broadcastInDim S98304x1 ![0] bcast_S98304_S98304x1_0 : (⟨S98304, .i32⟩ : BufTy).Contents (Elt F) → (⟨S98304x1, .i32⟩ : BufTy).Contents (Elt F)),
    binary main_v5 main_v19 main_v20 ((fun x i => Host.gather gather_S32768x128_S98304x1_S98304x128_1_0_n_n_0_1_1128 x i) : (⟨S32768x128, .f32⟩ : BufTy).Contents (Elt F) → (⟨S98304x1, .i32⟩ : BufTy).Contents (Elt F) → (⟨S98304x128, .f32⟩ : BufTy).Contents (Elt F)),
    nullary main_c_3 (constantI S_ 32 0#32),
    unary main_c_3 main_v21 (broadcastInDim S98304 ![] bcast_S_S98304 : (⟨S_, .i32⟩ : BufTy).Contents (Elt F) → (⟨S98304, .i32⟩ : BufTy).Contents (Elt F)),
    binary main_v12 main_v21 main_v22 (cmpi .slt : (⟨S98304, .i32⟩ : BufTy).Contents (Elt F) → (⟨S98304, .i32⟩ : BufTy).Contents (Elt F) → (⟨S98304, .i1⟩ : BufTy).Contents (Elt F)),
    nullary main_c_4 (constantI S_ 32 65536#32),
    unary main_c_4 main_v23 (broadcastInDim S98304 ![] bcast_S_S98304 : (⟨S_, .i32⟩ : BufTy).Contents (Elt F) → (⟨S98304, .i32⟩ : BufTy).Contents (Elt F)),
    binary main_v12 main_v23 main_v24 (addi : (⟨S98304, .i32⟩ : BufTy).Contents (Elt F) → (⟨S98304, .i32⟩ : BufTy).Contents (Elt F) → (⟨S98304, .i32⟩ : BufTy).Contents (Elt F)),
    ternary main_v22 main_v24 main_v12 main_v25 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v25 main_v26 (broadcastInDim S98304x1 ![0] bcast_S98304_S98304x1_0 : (⟨S98304, .i32⟩ : BufTy).Contents (Elt F) → (⟨S98304x1, .i32⟩ : BufTy).Contents (Elt F)),
    binary main_v4 main_v26 main_v27 ((fun x i => Host.gather gather_S65536x128_S98304x1_S98304x128_1_0_n_n_0_1_1128 x i) : (⟨S65536x128, .f32⟩ : BufTy).Contents (Elt F) → (⟨S98304x1, .i32⟩ : BufTy).Contents (Elt F) → (⟨S98304x128, .f32⟩ : BufTy).Contents (Elt F)),
    TRef.unary (.of main_v13 : TRef sig ⟨S98304x1, .i1⟩) (.of main_call2_v0 : TRef sig ⟨S98304x128, .i1⟩) (broadcastInDim S98304x128 ![0, 1] bcast_S98304x1_S98304x128_0_1),
    TRef.ternary (.of main_call2_v0 : TRef sig ⟨S98304x128, .i1⟩) (.of main_v20 : TRef sig ⟨S98304x128, .f32⟩) (.of main_v27 : TRef sig ⟨S98304x128, .f32⟩) (.of main_v28 : TRef sig ⟨S98304x128, .f32⟩) select,
    unary main_arg0 main_v29 ((extractStridedSlice S16384x128 ![0, 0] · slices_S573440x128_S16384x128_0_0) : (⟨S573440x128, .f32⟩ : BufTy).Contents (Elt F) → (⟨S16384x128, .f32⟩ : BufTy).Contents (Elt F)),
    binary main_v29 main_v28 main_v30 ((fun a b => concatenate S114688x128 0 [⟨S16384x128, a⟩, ⟨S98304x128, b⟩] concatenates_S16384x128_S98304x128_S114688x128_d0) : (⟨S16384x128, .f32⟩ : BufTy).Contents (Elt F) → (⟨S98304x128, .f32⟩ : BufTy).Contents (Elt F) → (⟨S114688x128, .f32⟩ : BufTy).Contents (Elt F)),
    TRef.unary (.of main_arg4 : TRef sig ⟨S114688, .i32⟩) (.of main_call3_v0 : TRef sig ⟨S114688x1, .i32⟩) (broadcastInDim S114688x1 ![0] bcast_S114688_S114688x1_0),
    TRef.nullary (.of main_call3_v1 : TRef sig ⟨S1x7, .i32⟩) (iotaInDim S1x7 32 1),
    TRef.unary (.of main_call3_v0 : TRef sig ⟨S114688x1, .i32⟩) (.of main_call3_v2 : TRef sig ⟨S114688x7, .i32⟩) (broadcastInDim S114688x7 ![0, 1] bcast_S114688x1_S114688x7_0_1),
    TRef.unary (.of main_call3_v1 : TRef sig ⟨S1x7, .i32⟩) (.of main_call3_v3 : TRef sig ⟨S114688x7, .i32⟩) (broadcastInDim S114688x7 ![0, 1] bcast_S1x7_S114688x7_0_1),
    TRef.binary (.of main_call3_v2 : TRef sig ⟨S114688x7, .i32⟩) (.of main_call3_v3 : TRef sig ⟨S114688x7, .i32⟩) (.of main_call3_v4 : TRef sig ⟨S114688x7, .i1⟩) (cmpi .eq),
    TRef.unary (.of main_call3_v4 : TRef sig ⟨S114688x7, .i1⟩) (.of main_v31 : TRef sig ⟨S114688x7, .f32⟩) (uitofp .f32),
    binary main_v30 main_v31 main_v32 ((fun a b => concatenate S114688x135 1 [⟨S114688x128, a⟩, ⟨S114688x7, b⟩] concatenates_S114688x128_S114688x7_S114688x135_d1) : (⟨S114688x128, .f32⟩ : BufTy).Contents (Elt F) → (⟨S114688x7, .f32⟩ : BufTy).Contents (Elt F) → (⟨S114688x135, .f32⟩ : BufTy).Contents (Elt F)),
    unary main_arg2 main_v33 ((extractStridedSlice S1x802816 ![0, 0] · slices_S2x802816_S1x802816_0_0) : (⟨S2x802816, .i32⟩ : BufTy).Contents (Elt F) → (⟨S1x802816, .i32⟩ : BufTy).Contents (Elt F)),
    reshape main_v33 main_v34 rfl shapeCasts_S1x802816_S802816,
    unary main_arg2 main_v35 ((extractStridedSlice S1x802816 ![1, 0] · slices_S2x802816_S1x802816_1_0) : (⟨S2x802816, .i32⟩ : BufTy).Contents (Elt F) → (⟨S1x802816, .i32⟩ : BufTy).Contents (Elt F)),
    reshape main_v35 main_v36 rfl shapeCasts_S1x802816_S802816,
    nullary main_c_5 (constantI S_ 32 7#32),
    unary main_c_5 main_v37 (broadcastInDim S802816 ![] bcast_S_S802816 : (⟨S_, .i32⟩ : BufTy).Contents (Elt F) → (⟨S802816, .i32⟩ : BufTy).Contents (Elt F)),
    binary main_v34 main_v37 main_v38 (muli : (⟨S802816, .i32⟩ : BufTy).Contents (Elt F) → (⟨S802816, .i32⟩ : BufTy).Contents (Elt F) → (⟨S802816, .i32⟩ : BufTy).Contents (Elt F)),
    binary main_v38 main_arg3 main_v39 (addi : (⟨S802816, .i32⟩ : BufTy).Contents (Elt F) → (⟨S802816, .i32⟩ : BufTy).Contents (Elt F) → (⟨S802816, .i32⟩ : BufTy).Contents (Elt F)),
    nullary main_c_6 (constantI S_ 32 0#32),
    unary main_c_6 main_v40 (broadcastInDim S802816 ![] bcast_S_S802816 : (⟨S_, .i32⟩ : BufTy).Contents (Elt F) → (⟨S802816, .i32⟩ : BufTy).Contents (Elt F)),
    binary main_v36 main_v40 main_v41 (cmpi .slt : (⟨S802816, .i32⟩ : BufTy).Contents (Elt F) → (⟨S802816, .i32⟩ : BufTy).Contents (Elt F) → (⟨S802816, .i1⟩ : BufTy).Contents (Elt F)),
    nullary main_c_7 (constantI S_ 32 114688#32),
    unary main_c_7 main_v42 (broadcastInDim S802816 ![] bcast_S_S802816 : (⟨S_, .i32⟩ : BufTy).Contents (Elt F) → (⟨S802816, .i32⟩ : BufTy).Contents (Elt F)),
    binary main_v36 main_v42 main_v43 (addi : (⟨S802816, .i32⟩ : BufTy).Contents (Elt F) → (⟨S802816, .i32⟩ : BufTy).Contents (Elt F) → (⟨S802816, .i32⟩ : BufTy).Contents (Elt F)),
    ternary main_v41 main_v43 main_v36 main_v44 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    unary main_v44 main_v45 (broadcastInDim S802816x1 ![0] bcast_S802816_S802816x1_0 : (⟨S802816, .i32⟩ : BufTy).Contents (Elt F) → (⟨S802816x1, .i32⟩ : BufTy).Contents (Elt F)),
    binary main_v32 main_v45 main_v46 ((fun x i => Host.gather gather_S114688x135_S802816x1_S802816x135_1_0_n_n_0_1_1135 x i) : (⟨S114688x135, .f32⟩ : BufTy).Contents (Elt F) → (⟨S802816x1, .i32⟩ : BufTy).Contents (Elt F) → (⟨S802816x135, .f32⟩ : BufTy).Contents (Elt F)),
    nullary main_cst (constant S_ .f32 0x00000000#32),
    unary main_cst main_v47 (broadcastInDim S802816x135 ![] bcast_S_S802816x135 : (⟨S_, .f32⟩ : BufTy).Contents (Elt F) → (⟨S802816x135, .f32⟩ : BufTy).Contents (Elt F)),
    unary main_v39 main_v48 (broadcastInDim S802816x1 ![0] bcast_S802816_S802816x1_0 : (⟨S802816, .i32⟩ : BufTy).Contents (Elt F) → (⟨S802816x1, .i32⟩ : BufTy).Contents (Elt F)),
    ternary main_v47 main_v48 main_v46 main_v49 ((fun x i u => Host.scatterAdd scatter_S802816x135_S802816x1_S802816x135_1_0_0_1 x i u) : (⟨S802816x135, .f32⟩ : BufTy).Contents (Elt F) → (⟨S802816x1, .i32⟩ : BufTy).Contents (Elt F) → (⟨S802816x135, .f32⟩ : BufTy).Contents (Elt F) → (⟨S802816x135, .f32⟩ : BufTy).Contents (Elt F)),
    reshape main_v49 main_v50 rfl shapeCasts_S802816x135_S114688x945,
    binary main_v50 main_arg6 main_v51 ((fun l r => Host.dotGeneral dot_S114688x945_S945x128_S114688x128_1_0_0_1_n_n none l r) : (⟨S114688x945, .f32⟩ : BufTy).Contents (Elt F) → (⟨S945x128, .f32⟩ : BufTy).Contents (Elt F) → (⟨S114688x128, .f32⟩ : BufTy).Contents (Elt F)) ]

/-- The whole line is its three pieces, one after the other. -/
theorem ops_split : (ops : List (HloOp τ sig (Elt F))) = opsA ++ (opsB ++ opsC) := rfl

set_option maxRecDepth 4096 in
set_option maxHeartbeats 4000000 in
/-- @main is that straight line: with the functions' definitions unfolded at their calls and sequencing
    reassociated (`bind_assoc`, `pure_bind`), both sides are one chain of `hlo` steps ending in the return; the
    calls' buffer records reduce to their fields by computation. -/
theorem main_eq (c : Dev nD) : main (F := F) c = seq ops := by
  simp only [main, main_part0, main_part1, fn_cumsum.body, fn_cumsum_1.body, fn_cumsum_0.body, fn_where.body,
    fn_one_hot.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., reshape_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., ternary_bufs_sub ..,
    unary_bufs_sub .., binary_bufs_sub .., unary_bufs_sub .., nullary_bufs_sub .., unary_bufs_sub .., unary_bufs_sub ..,
    binary_bufs_sub .., unary_bufs_sub .., binary_bufs_sub .., unary_bufs_sub .., reshape_bufs_sub .., unary_bufs_sub ..,
    reshape_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    reshape_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Cat.lean ====
/-
  Two arrays laid side by side along one axis, as a function of the two arrays: the concatenation of a list of two
  blocks, named so that each block is an argument of its own.
-/
import Idealize.ShloMosaic.PureOps

noncomputable section

namespace Cert.Cat

open Idealize.ShloMosaic

/-- The concatenation of `x` (shape `s₁`) and `y` (shape `s₂`) along axis `a` of the result shape `t`. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

end Cert.Cat

end
-- ==== Proof.Bridge.lean ====
/-
  The host operations between the two matrix products are the same function in both programs.  The kernel's
  program and the reference apply, to the first product and to the argument arrays, the same chain: the leaf rows
  and the prefix counts of the mask and of its complement, the two row gathers and their select, the node table
  with the prefix rows on top and the one-hot node types beside it, the gather of the edges' source rows, and their
  scatter-add into the (node, edge type) buckets, reshaped to one row per node.  (The kernel's program widens the
  mask to i32 before it calls the prefix count and the reference inside the call, and the kernel's program ends the
  chain with a change of float format, which is the identity on the extended reals.)  So from stages that agree
  on the first product and on the argument arrays, the two chains end with equal bucket tables.
-/
import proofs.«127156_j2224793059396_1_alg».proof.Proof.Gen.KernelIdeal.Launch
import proofs.«127156_j2224793059396_1_alg».proof.Proof.RefRun
import proofs.«127156_j2224793059396_1_alg».proof.Proof.Cat
import Idealize.ShloMosaic.Lib.StableHlo.Run
import Idealize.ShloMosaic.PureOps.Ideal

noncomputable section

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]

/-- The stretch that puts the prefix rows on top of the merged rows, the concatenation as a function of its two blocks. -/
abbrev rowsOps : List (HloOp τ sig (Elt F)) :=
  [ StableHlo.unary main_arg0 main_v33 ((extractStridedSlice S16384x128 ![0, 0] · slices_S573440x128_S16384x128_0_0) : (⟨S573440x128, .f32⟩ : BufTy).Contents (Elt F) → (⟨S16384x128, .f32⟩ : BufTy).Contents (Elt F)),
    StableHlo.binary main_v33 main_v32 main_v34 ((Cert.Cat.cat2 S114688x128 0 S16384x128 S98304x128 concatenates_S16384x128_S98304x128_S114688x128_d0) : (⟨S16384x128, .f32⟩ : BufTy).Contents (Elt F) → (⟨S98304x128, .f32⟩ : BufTy).Contents (Elt F) → (⟨S114688x128, .f32⟩ : BufTy).Contents (Elt F)) ]

/-- The last stretch before the second product, its first operation (the one-hot columns beside the node table) as
    a function of its two blocks. -/
abbrev tailOps : List (HloOp τ sig (Elt F)) :=
  [ StableHlo.binary main_v34 main_v35 main_v36 ((Cert.Cat.cat2 S114688x135 1 S114688x128 S114688x7 concatenates_S114688x128_S114688x7_S114688x135_d1) : (⟨S114688x128, .f32⟩ : BufTy).Contents (Elt F) → (⟨S114688x7, .f32⟩ : BufTy).Contents (Elt F) → (⟨S114688x135, .f32⟩ : BufTy).Contents (Elt F)),
    StableHlo.unary main_arg2 main_v37 ((extractStridedSlice S1x802816 ![0, 0] · slices_S2x802816_S1x802816_0_0) : (⟨S2x802816, .i32⟩ : BufTy).Contents (Elt F) → (⟨S1x802816, .i32⟩ : BufTy).Contents (Elt F)),
    StableHlo.reshape main_v37 main_v38 rfl shapeCasts_S1x802816_S802816,
    StableHlo.unary main_arg2 main_v39 ((extractStridedSlice S1x802816 ![1, 0] · slices_S2x802816_S1x802816_1_0) : (⟨S2x802816, .i32⟩ : BufTy).Contents (Elt F) → (⟨S1x802816, .i32⟩ : BufTy).Contents (Elt F)),
    StableHlo.reshape main_v39 main_v40 rfl shapeCasts_S1x802816_S802816,
    StableHlo.nullary main_c_5 (constantI S_ 32 7#32),
    StableHlo.unary main_c_5 main_v41 (broadcastInDim S802816 ![] bcast_S_S802816 : (⟨S_, .i32⟩ : BufTy).Contents (Elt F) → (⟨S802816, .i32⟩ : BufTy).Contents (Elt F)),
    StableHlo.binary main_v38 main_v41 main_v42 (muli : (⟨S802816, .i32⟩ : BufTy).Contents (Elt F) → (⟨S802816, .i32⟩ : BufTy).Contents (Elt F) → (⟨S802816, .i32⟩ : BufTy).Contents (Elt F)),
    StableHlo.binary main_v42 main_arg3 main_v43 (addi : (⟨S802816, .i32⟩ : BufTy).Contents (Elt F) → (⟨S802816, .i32⟩ : BufTy).Contents (Elt F) → (⟨S802816, .i32⟩ : BufTy).Contents (Elt F)),
    StableHlo.nullary main_c_6 (constantI S_ 32 0#32),
    StableHlo.unary main_c_6 main_v44 (broadcastInDim S802816 ![] bcast_S_S802816 : (⟨S_, .i32⟩ : BufTy).Contents (Elt F) → (⟨S802816, .i32⟩ : BufTy).Contents (Elt F)),
    StableHlo.binary main_v40 main_v44 main_v45 (cmpi .slt : (⟨S802816, .i32⟩ : BufTy).Contents (Elt F) → (⟨S802816, .i32⟩ : BufTy).Contents (Elt F) → (⟨S802816, .i1⟩ : BufTy).Contents (Elt F)),
    StableHlo.nullary main_c_7 (constantI S_ 32 114688#32),
    StableHlo.unary main_c_7 main_v46 (broadcastInDim S802816 ![] bcast_S_S802816 : (⟨S_, .i32⟩ : BufTy).Contents (Elt F) → (⟨S802816, .i32⟩ : BufTy).Contents (Elt F)),
    StableHlo.binary main_v40 main_v46 main_v47 (addi : (⟨S802816, .i32⟩ : BufTy).Contents (Elt F) → (⟨S802816, .i32⟩ : BufTy).Contents (Elt F) → (⟨S802816, .i32⟩ : BufTy).Contents (Elt F)),
    StableHlo.ternary main_v45 main_v47 main_v40 main_v48 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    StableHlo.unary main_v48 main_v49 (broadcastInDim S802816x1 ![0] bcast_S802816_S802816x1_0 : (⟨S802816, .i32⟩ : BufTy).Contents (Elt F) → (⟨S802816x1, .i32⟩ : BufTy).Contents (Elt F)),
    StableHlo.binary main_v36 main_v49 main_v50 ((fun x i => Host.gather gather_S114688x135_S802816x1_S802816x135_1_0_n_n_0_1_1135 x i) : (⟨S114688x135, .f32⟩ : BufTy).Contents (Elt F) → (⟨S802816x1, .i32⟩ : BufTy).Contents (Elt F) → (⟨S802816x135, .f32⟩ : BufTy).Contents (Elt F)),
    StableHlo.nullary main_cst (constant S_ .f32 0x00000000#32),
    StableHlo.unary main_cst main_v51 (broadcastInDim S802816x135 ![] bcast_S_S802816x135 : (⟨S_, .f32⟩ : BufTy).Contents (Elt F) → (⟨S802816x135, .f32⟩ : BufTy).Contents (Elt F)),
    StableHlo.unary main_v43 main_v52 (broadcastInDim S802816x1 ![0] bcast_S802816_S802816x1_0 : (⟨S802816, .i32⟩ : BufTy).Contents (Elt F) → (⟨S802816x1, .i32⟩ : BufTy).Contents (Elt F)),
    StableHlo.ternary main_v51 main_v52 main_v50 main_v53 ((fun x i u => Host.scatterAdd scatter_S802816x135_S802816x1_S802816x135_1_0_0_1 x i u) : (⟨S802816x135, .f32⟩ : BufTy).Contents (Elt F) → (⟨S802816x1, .i32⟩ : BufTy).Contents (Elt F) → (⟨S802816x135, .f32⟩ : BufTy).Contents (Elt F) → (⟨S802816x135, .f32⟩ : BufTy).Contents (Elt F)),
    StableHlo.reshape main_v53 main_v54 rfl shapeCasts_S802816x135_S114688x945,
    StableHlo.unary main_v54 main_v55 ((truncf .bf16 · bitsLt_bf16_f32) : (⟨S114688x945, .f32⟩ : BufTy).Contents (Elt F) → (⟨S114688x945, .bf16⟩ : BufTy).Contents (Elt F)),
    StableHlo.unary main_arg6 main_v56 ((truncf .bf16 · bitsLt_bf16_f32) : (⟨S945x128, .f32⟩ : BufTy).Contents (Elt F) → (⟨S945x128, .bf16⟩ : BufTy).Contents (Elt F)) ]

theorem rowsOps_eq : (hostOps1_6 : List (HloOp τ sig (Elt F))) = rowsOps := rfl
theorem tailOps_eq : (hostOps1_8 : List (HloOp τ sig (Elt F))) = tailOps := rfl

/-- The buffers after the nine host stretches between the two regions, from the contents `X` at the first region's exit. -/
def mid (X : Valuation τ sig (Elt F)) : Valuation τ sig (Elt F) :=
  after tailOps (after hostOps1_7 (after rowsOps (after hostOps1_5 (after hostOps1_4 (after hostOps1_3
    (after hostOps1_2 (after hostOps1_1 (after hostOps1 X))))))))

theorem mid_eq (X : Valuation τ sig (Elt F)) :
    after hostOps1_8 (after hostOps1_7 (after hostOps1_6 (after hostOps1_5 (after hostOps1_4 (after hostOps1_3
      (after hostOps1_2 (after hostOps1_1 (after hostOps1 X)))))))) = mid X := by
  rw [rowsOps_eq, tailOps_eq]; rfl

end Cert.KernelIdeal.Mid

namespace Cert.ReferenceIdeal.Mid

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The reference's sixty-eight operations between its two products, each concatenation as a function of its two blocks. -/
abbrev midOps : List (HloOp τ sig (Elt F)) :=
  [ unary main_arg0 main_v5 ((extractStridedSlice S32768x128 ![16384, 0] · slices_S573440x128_S32768x128_16384_0) : (⟨S573440x128, .f32⟩ : BufTy).Contents (Elt F) → (⟨S32768x128, .f32⟩ : BufTy).Contents (Elt F)),
    TRef.unary (.of main_arg1 : TRef sig ⟨S98304, .i1⟩) (.of main_call0_v0 : TRef sig ⟨S98304, .i32⟩) (extui 32 · natLt_1_32),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_call0_v0 : TRef sig ⟨S98304, .i32⟩) (.of main_call0_call0_v0 : TRef sig ⟨S_, .i32⟩) (.of main_v6 : TRef sig ⟨S98304, .i32⟩) (fun x v => Host.reduceWindow IntOp.addi ![98304] ![1] ![98303] ![0] x v reduceWindows_S98304_S98304_w98304s1p98303_0 h_S_),
    nullary main_c (constantI S_ 32 1#32),
    unary main_c main_v7 (broadcastInDim S98304 ![] bcast_S_S98304 : (⟨S_, .i32⟩ : BufTy).Contents (Elt F) → (⟨S98304, .i32⟩ : BufTy).Contents (Elt F)),
    binary main_v6 main_v7 main_v8 (subi : (⟨S98304, .i32⟩ : BufTy).Contents (Elt F) → (⟨S98304, .i32⟩ : BufTy).Contents (Elt F) → (⟨S98304, .i32⟩ : BufTy).Contents (Elt F)),
    unary main_arg1 main_v9 (noti : (⟨S98304, .i1⟩ : BufTy).Contents (Elt F) → (⟨S98304, .i1⟩ : BufTy).Contents (Elt F)),
    TRef.unary (.of main_v9 : TRef sig ⟨S98304, .i1⟩) (.of main_call1_v0 : TRef sig ⟨S98304, .i32⟩) (extui 32 · natLt_1_32),
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_call1_v0 : TRef sig ⟨S98304, .i32⟩) (.of main_call1_call0_v0 : TRef sig ⟨S_, .i32⟩) (.of main_v10 : TRef sig ⟨S98304, .i32⟩) (fun x v => Host.reduceWindow IntOp.addi ![98304] ![1] ![98303] ![0] x v reduceWindows_S98304_S98304_w98304s1p98303_0 h_S_),
    nullary main_c_0 (constantI S_ 32 1#32),
    unary main_c_0 main_v11 (broadcastInDim S98304 ![] bcast_S_S98304 : (⟨S_, .i32⟩ : BufTy).Contents (Elt F) → (⟨S98304, .i32⟩ : BufTy).Contents (Elt F)),
    binary main_v10 main_v11 main_v12 (subi : (⟨S98304, .i32⟩ : BufTy).Contents (Elt F) → (⟨S98304, .i32⟩ : BufTy).Contents (Elt F) → (⟨S98304, .i32⟩ : BufTy).Contents (Elt F)),
    unary main_arg1 main_v13 (broadcastInDim S98304x1 ![0] bcast_S98304_S98304x1_0 : (⟨S98304, .i1⟩ : BufTy).Contents (Elt F) → (⟨S98304x1, .i1⟩ : BufTy).Contents (Elt F)),
    nullary main_c_1 (constantI S_ 32 0#32),
    unary main_c_1 main_v14 (broadcastInDim S98304 ![] bcast_S_S98304 : (⟨S_, .i32⟩ : BufTy).Contents (Elt F) → (⟨S98304, .i32⟩ : BufTy).Contents (Elt F)),
    binary main_v8 main_v14 main_v15 (cmpi .slt : (⟨S98304, .i32⟩ : BufTy).Contents (Elt F) → (⟨S98304, .i32⟩ : BufTy).Contents (Elt F) → (⟨S98304, .i1⟩ : BufTy).Contents (Elt F)),
    nullary main_c_2 (constantI S_ 32 32768#32),
    unary main_c_2 main_v16 (broadcastInDim S98304 ![] bcast_S_S98304 : (⟨S_, .i32⟩ : BufTy).Contents (Elt F) → (⟨S98304, .i32⟩ : BufTy).Contents (Elt F)),
    binary main_v8 main_v16 main_v17 (addi : (⟨S98304, .i32⟩ : BufTy).Contents (Elt F) → (⟨S98304, .i32⟩ : BufTy).Contents (Elt F) → (⟨S98304, .i32⟩ : BufTy).Contents (Elt F)),
    ternary main_v15 main_v17 main_v8 main_v18 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v18 main_v19 (broadcastInDim S98304x1 ![0] bcast_S98304_S98304x1_0 : (⟨S98304, .i32⟩ : BufTy).Contents (Elt F) → (⟨S98304x1, .i32⟩ : BufTy).Contents (Elt F)),
    binary main_v5 main_v19 main_v20 ((fun x i => Host.gather gather_S32768x128_S98304x1_S98304x128_1_0_n_n_0_1_1128 x i) : (⟨S32768x128, .f32⟩ : BufTy).Contents (Elt F) → (⟨S98304x1, .i32⟩ : BufTy).Contents (Elt F) → (⟨S98304x128, .f32⟩ : BufTy).Contents (Elt F)),
    nullary main_c_3 (constantI S_ 32 0#32),
    unary main_c_3 main_v21 (broadcastInDim S98304 ![] bcast_S_S98304 : (⟨S_, .i32⟩ : BufTy).Contents (Elt F) → (⟨S98304, .i32⟩ : BufTy).Contents (Elt F)),
    binary main_v12 main_v21 main_v22 (cmpi .slt : (⟨S98304, .i32⟩ : BufTy).Contents (Elt F) → (⟨S98304, .i32⟩ : BufTy).Contents (Elt F) → (⟨S98304, .i1⟩ : BufTy).Contents (Elt F)),
    nullary main_c_4 (constantI S_ 32 65536#32),
    unary main_c_4 main_v23 (broadcastInDim S98304 ![] bcast_S_S98304 : (⟨S_, .i32⟩ : BufTy).Contents (Elt F) → (⟨S98304, .i32⟩ : BufTy).Contents (Elt F)),
    binary main_v12 main_v23 main_v24 (addi : (⟨S98304, .i32⟩ : BufTy).Contents (Elt F) → (⟨S98304, .i32⟩ : BufTy).Contents (Elt F) → (⟨S98304, .i32⟩ : BufTy).Contents (Elt F)),
    ternary main_v22 main_v24 main_v12 main_v25 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v25 main_v26 (broadcastInDim S98304x1 ![0] bcast_S98304_S98304x1_0 : (⟨S98304, .i32⟩ : BufTy).Contents (Elt F) → (⟨S98304x1, .i32⟩ : BufTy).Contents (Elt F)),
    binary main_v4 main_v26 main_v27 ((fun x i => Host.gather gather_S65536x128_S98304x1_S98304x128_1_0_n_n_0_1_1128 x i) : (⟨S65536x128, .f32⟩ : BufTy).Contents (Elt F) → (⟨S98304x1, .i32⟩ : BufTy).Contents (Elt F) → (⟨S98304x128, .f32⟩ : BufTy).Contents (Elt F)),
    TRef.unary (.of main_v13 : TRef sig ⟨S98304x1, .i1⟩) (.of main_call2_v0 : TRef sig ⟨S98304x128, .i1⟩) (broadcastInDim S98304x128 ![0, 1] bcast_S98304x1_S98304x128_0_1),
    TRef.ternary (.of main_call2_v0 : TRef sig ⟨S98304x128, .i1⟩) (.of main_v20 : TRef sig ⟨S98304x128, .f32⟩) (.of main_v27 : TRef sig ⟨S98304x128, .f32⟩) (.of main_v28 : TRef sig ⟨S98304x128, .f32⟩) select,
    unary main_arg0 main_v29 ((extractStridedSlice S16384x128 ![0, 0] · slices_S573440x128_S16384x128_0_0) : (⟨S573440x128, .f32⟩ : BufTy).Contents (Elt F) → (⟨S16384x128, .f32⟩ : BufTy).Contents (Elt F)),
    binary main_v29 main_v28 main_v30 ((Cert.Cat.cat2 S114688x128 0 S16384x128 S98304x128 concatenates_S16384x128_S98304x128_S114688x128_d0) : (⟨S16384x128, .f32⟩ : BufTy).Contents (Elt F) → (⟨S98304x128, .f32⟩ : BufTy).Contents (Elt F) → (⟨S114688x128, .f32⟩ : BufTy).Contents (Elt F)),
    TRef.unary (.of main_arg4 : TRef sig ⟨S114688, .i32⟩) (.of main_call3_v0 : TRef sig ⟨S114688x1, .i32⟩) (broadcastInDim S114688x1 ![0] bcast_S114688_S114688x1_0),
    TRef.nullary (.of main_call3_v1 : TRef sig ⟨S1x7, .i32⟩) (iotaInDim S1x7 32 1),
    TRef.unary (.of main_call3_v0 : TRef sig ⟨S114688x1, .i32⟩) (.of main_call3_v2 : TRef sig ⟨S114688x7, .i32⟩) (broadcastInDim S114688x7 ![0, 1] bcast_S114688x1_S114688x7_0_1),
    TRef.unary (.of main_call3_v1 : TRef sig ⟨S1x7, .i32⟩) (.of main_call3_v3 : TRef sig ⟨S114688x7, .i32⟩) (broadcastInDim S114688x7 ![0, 1] bcast_S1x7_S114688x7_0_1),
    TRef.binary (.of main_call3_v2 : TRef sig ⟨S114688x7, .i32⟩) (.of main_call3_v3 : TRef sig ⟨S114688x7, .i32⟩) (.of main_call3_v4 : TRef sig ⟨S114688x7, .i1⟩) (cmpi .eq),
    TRef.unary (.of main_call3_v4 : TRef sig ⟨S114688x7, .i1⟩) (.of main_v31 : TRef sig ⟨S114688x7, .f32⟩) (uitofp .f32),
    binary main_v30 main_v31 main_v32 ((Cert.Cat.cat2 S114688x135 1 S114688x128 S114688x7 concatenates_S114688x128_S114688x7_S114688x135_d1) : (⟨S114688x128, .f32⟩ : BufTy).Contents (Elt F) → (⟨S114688x7, .f32⟩ : BufTy).Contents (Elt F) → (⟨S114688x135, .f32⟩ : BufTy).Contents (Elt F)),
    unary main_arg2 main_v33 ((extractStridedSlice S1x802816 ![0, 0] · slices_S2x802816_S1x802816_0_0) : (⟨S2x802816, .i32⟩ : BufTy).Contents (Elt F) → (⟨S1x802816, .i32⟩ : BufTy).Contents (Elt F)),
    reshape main_v33 main_v34 rfl shapeCasts_S1x802816_S802816,
    unary main_arg2 main_v35 ((extractStridedSlice S1x802816 ![1, 0] · slices_S2x802816_S1x802816_1_0) : (⟨S2x802816, .i32⟩ : BufTy).Contents (Elt F) → (⟨S1x802816, .i32⟩ : BufTy).Contents (Elt F)),
    reshape main_v35 main_v36 rfl shapeCasts_S1x802816_S802816,
    nullary main_c_5 (constantI S_ 32 7#32),
    unary main_c_5 main_v37 (broadcastInDim S802816 ![] bcast_S_S802816 : (⟨S_, .i32⟩ : BufTy).Contents (Elt F) → (⟨S802816, .i32⟩ : BufTy).Contents (Elt F)),
    binary main_v34 main_v37 main_v38 (muli : (⟨S802816, .i32⟩ : BufTy).Contents (Elt F) → (⟨S802816, .i32⟩ : BufTy).Contents (Elt F) → (⟨S802816, .i32⟩ : BufTy).Contents (Elt F)),
    binary main_v38 main_arg3 main_v39 (addi : (⟨S802816, .i32⟩ : BufTy).Contents (Elt F) → (⟨S802816, .i32⟩ : BufTy).Contents (Elt F) → (⟨S802816, .i32⟩ : BufTy).Contents (Elt F)),
    nullary main_c_6 (constantI S_ 32 0#32),
    unary main_c_6 main_v40 (broadcastInDim S802816 ![] bcast_S_S802816 : (⟨S_, .i32⟩ : BufTy).Contents (Elt F) → (⟨S802816, .i32⟩ : BufTy).Contents (Elt F)),
    binary main_v36 main_v40 main_v41 (cmpi .slt : (⟨S802816, .i32⟩ : BufTy).Contents (Elt F) → (⟨S802816, .i32⟩ : BufTy).Contents (Elt F) → (⟨S802816, .i1⟩ : BufTy).Contents (Elt F)),
    nullary main_c_7 (constantI S_ 32 114688#32),
    unary main_c_7 main_v42 (broadcastInDim S802816 ![] bcast_S_S802816 : (⟨S_, .i32⟩ : BufTy).Contents (Elt F) → (⟨S802816, .i32⟩ : BufTy).Contents (Elt F)),
    binary main_v36 main_v42 main_v43 (addi : (⟨S802816, .i32⟩ : BufTy).Contents (Elt F) → (⟨S802816, .i32⟩ : BufTy).Contents (Elt F) → (⟨S802816, .i32⟩ : BufTy).Contents (Elt F)),
    ternary main_v41 main_v43 main_v36 main_v44 (select : (⟨S802816, .i1⟩ : BufTy).Contents (Elt F) → (⟨S802816, .i32⟩ : BufTy).Contents (Elt F) → (⟨S802816, .i32⟩ : BufTy).Contents (Elt F) → (⟨S802816, .i32⟩ : BufTy).Contents (Elt F)),
    unary main_v44 main_v45 (broadcastInDim S802816x1 ![0] bcast_S802816_S802816x1_0 : (⟨S802816, .i32⟩ : BufTy).Contents (Elt F) → (⟨S802816x1, .i32⟩ : BufTy).Contents (Elt F)),
    binary main_v32 main_v45 main_v46 ((fun x i => Host.gather gather_S114688x135_S802816x1_S802816x135_1_0_n_n_0_1_1135 x i) : (⟨S114688x135, .f32⟩ : BufTy).Contents (Elt F) → (⟨S802816x1, .i32⟩ : BufTy).Contents (Elt F) → (⟨S802816x135, .f32⟩ : BufTy).Contents (Elt F)),
    nullary main_cst (constant S_ .f32 0x00000000#32),
    unary main_cst main_v47 (broadcastInDim S802816x135 ![] bcast_S_S802816x135 : (⟨S_, .f32⟩ : BufTy).Contents (Elt F) → (⟨S802816x135, .f32⟩ : BufTy).Contents (Elt F)),
    unary main_v39 main_v48 (broadcastInDim S802816x1 ![0] bcast_S802816_S802816x1_0 : (⟨S802816, .i32⟩ : BufTy).Contents (Elt F) → (⟨S802816x1, .i32⟩ : BufTy).Contents (Elt F)),
    ternary main_v47 main_v48 main_v46 main_v49 ((fun x i u => Host.scatterAdd scatter_S802816x135_S802816x1_S802816x135_1_0_0_1 x i u) : (⟨S802816x135, .f32⟩ : BufTy).Contents (Elt F) → (⟨S802816x1, .i32⟩ : BufTy).Contents (Elt F) → (⟨S802816x135, .f32⟩ : BufTy).Contents (Elt F) → (⟨S802816x135, .f32⟩ : BufTy).Contents (Elt F)),
    reshape main_v49 main_v50 rfl shapeCasts_S802816x135_S114688x945 ]

theorem midOps_eq : (opsB : List (HloOp τ sig (Elt F))) = midOps := rfl

end Cert.ReferenceIdeal.Mid

namespace Cert.Bridge

open Idealize.ShloMosaic Idealize.ShloMosaic.TcCoe Idealize.SL.Sem Idealize.ShloMosaic.StableHlo

set_option maxHeartbeats 4000000 in
set_option maxRecDepth 65536 in
/-- From contents that agree on the first product and on the five arrays the chain reads, the kernel's program and
    the reference reach the same bucket table. -/
theorem mid_agree (X : Valuation Cert.KernelIdeal.τ Cert.KernelIdeal.sig (Elt Ideal))
    (Y : Valuation Cert.ReferenceIdeal.τ Cert.ReferenceIdeal.sig (Elt Ideal))
    (hp : X (Proc.devRef .tc Cert.KernelIdeal.main_v6) = Y (Proc.devRef .tc Cert.ReferenceIdeal.main_v4))
    (h0 : X (Proc.devRef .tc Cert.KernelIdeal.main_arg0) = Y (Proc.devRef .tc Cert.ReferenceIdeal.main_arg0))
    (h1 : X (Proc.devRef .tc Cert.KernelIdeal.main_arg1) = Y (Proc.devRef .tc Cert.ReferenceIdeal.main_arg1))
    (h2 : X (Proc.devRef .tc Cert.KernelIdeal.main_arg2) = Y (Proc.devRef .tc Cert.ReferenceIdeal.main_arg2))
    (h3 : X (Proc.devRef .tc Cert.KernelIdeal.main_arg3) = Y (Proc.devRef .tc Cert.ReferenceIdeal.main_arg3))
    (h4 : X (Proc.devRef .tc Cert.KernelIdeal.main_arg4) = Y (Proc.devRef .tc Cert.ReferenceIdeal.main_arg4)) :
    Cert.KernelIdeal.Mid.mid X (Proc.devRef .tc Cert.KernelIdeal.main_v55)
      = after Cert.ReferenceIdeal.Mid.midOps Y (Proc.devRef .tc Cert.ReferenceIdeal.main_v50) := by
  unfold Cert.KernelIdeal.Mid.mid
  after_results_simp
  rw [hp, h0, h1, h2, h3, h4]
  rfl

end Cert.Bridge

end
-- ==== Proof.KernelValue.lean ====
/-
  The idealized kernel's result as a formula.  The fold through the segments ends, at the result buffer, with the
  second region's output: the whole product (the second tiled product read as one array) of the bucket table the
  host chain leaves and of the second weight; the change of float format in front of each operand is the identity
  on the extended reals.  The first region's output, on which the host chain runs, is likewise the whole product of
  the reshaped deep rows and of the transposed, reshaped first weight.  The argument arrays are untouched on the way.
-/
import proofs.«127156_j2224793059396_1_alg».proof.Proof.Gen.KernelIdeal.Frame
import proofs.«127156_j2224793059396_1_alg».proof.Proof.RegionValue
import proofs.«127156_j2224793059396_1_alg».proof.Proof.Bridge

noncomputable section

namespace Cert.KernelIdeal.Hand

open Cert.KernelIdeal Cert.KernelIdeal.Gen Cert.LibMatmul
open Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch of host operations writes no argument array. -/
theorem hostOps0_kept (V : Valuation τ sig (Elt Ideal)) :
    after hostOps0 V (Proc.devRef .tc main_arg0) = V (Proc.devRef .tc main_arg0)
    ∧ after hostOps0 V (Proc.devRef .tc main_arg1) = V (Proc.devRef .tc main_arg1)
    ∧ after hostOps0 V (Proc.devRef .tc main_arg2) = V (Proc.devRef .tc main_arg2)
    ∧ after hostOps0 V (Proc.devRef .tc main_arg3) = V (Proc.devRef .tc main_arg3)
    ∧ after hostOps0 V (Proc.devRef .tc main_arg4) = V (Proc.devRef .tc main_arg4) := by
  refine ⟨?_, ?_, ?_, ?_, ?_⟩ <;> after_results_simp

/-- At the first region's exit the argument arrays the host chain reads are as launched: the region writes its
    result array only, and the stretch before it none of them. -/
theorem exit0_args (c : Dev nD) :
    W2 m ρ c (Proc.devRef .tc main_arg0) = m ((c : Thread nD τ).loc main_arg0)
    ∧ W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg4) = m ((c : Thread nD τ).loc main_arg4) := by
  obtain ⟨k0, k1, k2, k3, k4⟩ := hostOps0_kept (W0 m ρ c)
  exact ⟨(W2_of_ne m ρ c main_arg0 (by decide)).trans k0, (W2_of_ne m ρ c main_arg1 (by decide)).trans k1,
    (W2_of_ne m ρ c main_arg2 (by decide)).trans k2, (W2_of_ne m ρ c main_arg3 (by decide)).trans k3,
    (W2_of_ne m ρ c main_arg4 (by decide)).trans k4⟩

/-- The two operands the first region finds: the deep rows reshaped to 65536×1024 and the first weight reshaped and
    transposed to 1024×128 (the change of float format is the identity). -/
theorem entry0_operands (V : Valuation τ sig (Elt Ideal)) :
    (after hostOps0 V (Proc.devRef .tc main_v2) : S65536x1024.Idx → EReal)
        = shapeCast S65536x1024 (extractStridedSlice S524288x128 ![49152, 0] (V (Proc.devRef .tc main_arg0)) slices_S573440x128_S524288x128_49152_0) shapeCasts_S524288x128_S65536x1024
    ∧ (after hostOps0 V (Proc.devRef .tc main_v5) : S1024x128.Idx → EReal)
        = transpose S1024x128 [1, 0] (shapeCast S128x1024 (V (Proc.devRef .tc main_arg5)) shapeCasts_S128x128x8_S128x1024) transposes_S128x1024_S1024x128_1_0 := by
  constructor <;> (after_results_simp; rfl)

/-- The first region's output: the whole product of those two operands. -/
theorem product0 (c : Dev nD) :
    (W2 m ρ c (Proc.devRef .tc main_v6) : S65536x128.Idx → EReal)
      = MM (shapeCast S65536x1024 (extractStridedSlice S524288x128 ![49152, 0] (m ((c : Thread nD τ).loc main_arg0)) slices_S573440x128_S524288x128_49152_0) shapeCasts_S524288x128_S65536x1024)
          (transpose S1024x128 [1, 0] (shapeCast S128x1024 (m ((c : Thread nD τ).loc main_arg5)) shapeCasts_S128x128x8_S128x1024) transposes_S128x1024_S1024x128_1_0) := by
  refine (W2_arr m ρ c 2).trans ?_
  rw [RegionValue.final0 (V1 m ρ) c]
  obtain ⟨e2, e5⟩ := entry0_operands (W0 m ρ c)
  exact congrArg₂ MM e2 e5

/-- The last stretch hands the second weight to the second region unchanged (a change of float format). -/
theorem tail_weight (V : Valuation τ sig (Elt Ideal)) :
    (after hostOps1_8 V (Proc.devRef .tc main_v56) : S945x128.Idx → EReal) = after hostOps1_8 V (Proc.devRef .tc main_arg6) := by
  after_results_simp; rfl

/-- The kernel's result: the whole product of the bucket table the host chain leaves and of the second weight. -/
theorem result_eq (c : Dev nD) :
    (W12 m ρ c (Proc.devRef .tc main_v57) : S114688x128.Idx → EReal)
      = MM (Mid.mid (W2 m ρ c) (Proc.devRef .tc main_v55)) (m ((c : Thread nD τ).loc main_arg6)) := by
  refine (W12_arr m ρ c 2).trans ?_
  rw [RegionValue.final1 (V11 m ρ) c]
  refine congrArg₂ MM ?_ ?_
  · exact congrFun (Mid.mid_eq (W2 m ρ c)) _
  · exact (tail_weight (W10 m ρ c)).trans ((W12_of_ne m ρ c main_arg6 (by decide)).symm.trans (W12_main_arg6 m ρ c))

end Cert.KernelIdeal.Hand

end
-- ==== Proof.RefValue.lean ====
/-
  The reference run read at the buffers the comparison needs.

  No operation of the reference's line writes an argument's buffer, so every argument ends as launched
  (`kept_arg0` … `kept_arg6`), and the same holds piece by piece (`opsA_kept…`, `opsB_kept6`).

  At the ideal values both matrix products are the plain sum over the contracted axis (`MM`): the first, at the end
  of the first piece, is the product of the last 524288 rows of the first argument, regrouped eight rows to one
  (65536×1024), with the transposed, regrouped weight (1024×128) (`opsA_v4`); the result buffer holds the product of
  what the middle piece leaves in the reshaped table (114688×945) with the last argument (`result_eq`). The middle
  piece itself — prefix counts, gathers, the select, the scatter-add — is not opened here.
-/
import proofs.«127156_j2224793059396_1_alg».proof.Proof.RefRun
import proofs.«127156_j2224793059396_1_alg».proof.Proof.LibMatmul
import Idealize.ShloMosaic.Lib.Pipeline.Frame
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo Cert.LibMatmul

variable {F : FTy → Type} [FloatOps F]

/-! ## The arguments are not written -/

theorem kept_arg0 (Y : Valuation τ sig (Elt F)) :
    after ops Y (Proc.devRef .tc main_arg0) = Y (Proc.devRef .tc main_arg0) := by after_results_simp
theorem kept_arg1 (Y : Valuation τ sig (Elt F)) :
    after ops Y (Proc.devRef .tc main_arg1) = Y (Proc.devRef .tc main_arg1) := by after_results_simp
theorem kept_arg2 (Y : Valuation τ sig (Elt F)) :
    after ops Y (Proc.devRef .tc main_arg2) = Y (Proc.devRef .tc main_arg2) := by after_results_simp
theorem kept_arg3 (Y : Valuation τ sig (Elt F)) :
    after ops Y (Proc.devRef .tc main_arg3) = Y (Proc.devRef .tc main_arg3) := by after_results_simp
theorem kept_arg4 (Y : Valuation τ sig (Elt F)) :
    after ops Y (Proc.devRef .tc main_arg4) = Y (Proc.devRef .tc main_arg4) := by after_results_simp
theorem kept_arg5 (Y : Valuation τ sig (Elt F)) :
    after ops Y (Proc.devRef .tc main_arg5) = Y (Proc.devRef .tc main_arg5) := by after_results_simp
theorem kept_arg6 (Y : Valuation τ sig (Elt F)) :
    after ops Y (Proc.devRef .tc main_arg6) = Y (Proc.devRef .tc main_arg6) := by after_results_simp

/-! ## The same, piece by piece -/

theorem opsA_kept0 (Y : Valuation τ sig (Elt F)) :
    after opsA Y (Proc.devRef .tc main_arg0) = Y (Proc.devRef .tc main_arg0) := by after_results_simp
theorem opsA_kept1 (Y : Valuation τ sig (Elt F)) :
    after opsA Y (Proc.devRef .tc main_arg1) = Y (Proc.devRef .tc main_arg1) := by after_results_simp
theorem opsA_kept2 (Y : Valuation τ sig (Elt F)) :
    after opsA Y (Proc.devRef .tc main_arg2) = Y (Proc.devRef .tc main_arg2) := by after_results_simp
theorem opsA_kept3 (Y : Valuation τ sig (Elt F)) :
    after opsA Y (Proc.devRef .tc main_arg3) = Y (Proc.devRef .tc main_arg3) := by after_results_simp
theorem opsA_kept4 (Y : Valuation τ sig (Elt F)) :
    after opsA Y (Proc.devRef .tc main_arg4) = Y (Proc.devRef .tc main_arg4) := by after_results_simp
theorem opsA_kept6 (Y : Valuation τ sig (Elt F)) :
    after opsA Y (Proc.devRef .tc main_arg6) = Y (Proc.devRef .tc main_arg6) := by after_results_simp

theorem opsB_kept6 (Z : Valuation τ sig (Elt F)) :
    after opsB Z (Proc.devRef .tc main_arg6) = Z (Proc.devRef .tc main_arg6) := by after_results_simp

/-! ## The two matrix products at the ideal values -/

/-- After the first piece the first product's buffer holds the matrix product of the regrouped rows with the
    transposed, regrouped weight: the five operations read back, and the host's `dot_general` at these dimension
    numbers (contract the left operand's axis 1 with the right operand's axis 0, no batch axis) is `MM`. -/
theorem opsA_v4 (Y : Valuation τ sig (Elt Ideal)) :
    (after opsA Y (Proc.devRef .tc main_v4) : S65536x128.Idx → EReal)
      = MM (shapeCast S65536x1024 (extractStridedSlice S524288x128 ![49152, 0] (Y (Proc.devRef .tc main_arg0)) slices_S573440x128_S524288x128_49152_0) shapeCasts_S524288x128_S65536x1024)
          (transpose S1024x128 [1, 0] (shapeCast S128x1024 (Y (Proc.devRef .tc main_arg5)) shapeCasts_S128x128x8_S128x1024) transposes_S128x1024_S1024x128_1_0) := by
  after_results
  exact dotGeneral_eq dot_S65536x1024_S1024x128_S65536x128_1_0_0_1_n_n rfl rfl rfl rfl rfl rfl none .single _ _

/-- The last piece is one operation: from any contents `Z` it leaves in the result buffer the matrix product of
    `Z`'s reshaped table with `Z`'s last argument. -/
theorem opsC_v51 (Z : Valuation τ sig (Elt Ideal)) :
    (after opsC Z (Proc.devRef .tc main_v51) : S114688x128.Idx → EReal)
      = MM (Z (Proc.devRef .tc main_v50) : S114688x945.Idx → EReal) (Z (Proc.devRef .tc main_arg6) : S945x128.Idx → EReal) := by
  after_results
  exact dotGeneral_eq dot_S114688x945_S945x128_S114688x128_1_0_0_1_n_n rfl rfl rfl rfl rfl rfl none .single _ _

/-- The whole line's result: the matrix product of the table the first two pieces leave with the last argument as
    launched (no piece writes it). -/
theorem result_eq (Y : Valuation τ sig (Elt Ideal)) :
    (after ops Y (Proc.devRef .tc main_v51) : S114688x128.Idx → EReal)
      = MM (after opsB (after opsA Y) (Proc.devRef .tc main_v50) : S114688x945.Idx → EReal) (Y (Proc.devRef .tc main_arg6) : S945x128.Idx → EReal) := by
  rw [ops_split, after_append, after_append, opsC_v51, opsB_kept6, opsA_kept6]

end Cert.ReferenceIdeal.Hand

end
-- ==== Proof.lean ====
/-
  The certificate: a tiled graph down-sampling followed by a typed graph convolution against its jnp reference, on the
  extended reals.

  Both programs compute, from the node features x, the leaf mask, the edges (source row, target column, type), the node
  types and the two weights: (1) the product of the deepest 524288 rows, eight to a row of 1024, with the first weight
  reshaped to 128×1024 and transposed; (2) the table of the 114688 coarser nodes - the first 16384 rows of x on top, then
  for each masked position the next leaf row and for each unmasked position the next row of that product (prefix counts
  of the mask and of its complement, less one, pick the rows) - with the one-hot node type beside it; (3) for every
  (node, edge type) bucket the sum of the table rows of the edges' columns, one row of 945 per node; (4) the product of
  that with the second weight.  The kernel's program computes (1) and (4) by a grid of 4096-row tiles with operands
  rounded to bf16; on the extended reals a change of format is the identity, a tile of a product is the product of the
  left factor's row tile with the right factor (a row of a product depends on that row of the left factor only), and
  the tiles cover the result, so each tiled product is the whole product.  The host operations in between are the same
  chain in both programs.  No finiteness of the inputs is used: the two sides are the same sums of the same products in
  the same order.

  The frames of the word-level kernel and of the idealized kernel are the generated frame certificates; the
  reference's frame is its run with the result dropped; the ideal pass rewrote nothing, so `preserves` is trivial.
-/
import proofs.«127156_j2224793059396_1_alg».proof.Defs
import proofs.«127156_j2224793059396_1_alg».proof.Proof.Gen.Kernel
import proofs.«127156_j2224793059396_1_alg».proof.Proof.Gen.Kernel.Skeleton
import proofs.«127156_j2224793059396_1_alg».proof.Proof.Gen.Kernel.Launch
import proofs.«127156_j2224793059396_1_alg».proof.Proof.Gen.Kernel.Points
import proofs.«127156_j2224793059396_1_alg».proof.Proof.Gen.Kernel.Frame
import proofs.«127156_j2224793059396_1_alg».proof.Proof.Gen.KernelIdeal
import proofs.«127156_j2224793059396_1_alg».proof.Proof.Gen.KernelIdeal.Skeleton
import proofs.«127156_j2224793059396_1_alg».proof.Proof.Gen.KernelIdeal.Launch
import proofs.«127156_j2224793059396_1_alg».proof.Proof.Gen.KernelIdeal.Points
import proofs.«127156_j2224793059396_1_alg».proof.Proof.Gen.KernelIdeal.Frame
import proofs.«127156_j2224793059396_1_alg».proof.Proof.Gen.ReferenceIdeal
import proofs.«127156_j2224793059396_1_alg».proof.Proof.Gen.Pre_finite_inputs
import proofs.«127156_j2224793059396_1_alg».proof.Proof.KernelRun
import proofs.«127156_j2224793059396_1_alg».proof.Proof.KernelValue
import proofs.«127156_j2224793059396_1_alg».proof.Proof.RefRun
import proofs.«127156_j2224793059396_1_alg».proof.Proof.RefValue
import proofs.«127156_j2224793059396_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run leaves every argument array as launched: no operation writes one. -/
theorem frame_ri : Cert.frame_ReferenceIdeal := fun m ρ _ =>
  (θ_run Cert.ReferenceIdeal.defs _ _).mono
    (fun _ h c => ⟨(h c _).trans (Cert.ReferenceIdeal.Hand.kept_arg0 _), (h c _).trans (Cert.ReferenceIdeal.Hand.kept_arg1 _),
      (h c _).trans (Cert.ReferenceIdeal.Hand.kept_arg2 _), (h c _).trans (Cert.ReferenceIdeal.Hand.kept_arg3 _),
      (h c _).trans (Cert.ReferenceIdeal.Hand.kept_arg4 _), (h c _).trans (Cert.ReferenceIdeal.Hand.kept_arg5 _),
      (h c _).trans (Cert.ReferenceIdeal.Hand.kept_arg6 _)⟩)
    (Cert.ReferenceIdeal.Hand.run_main (F := Ideal) m ρ)

theorem preserves : Cert.preserves_Kernel_KernelIdeal := trivial

/-- Both runs end, the kernel's result at the whole product of its bucket table with the second weight and the
    reference's at the same: the bucket tables agree because the first products and the argument arrays do. -/
theorem algebraic : Cert.algebraic_KernelIdeal_ReferenceIdeal := by
  intro m ρ m' ρ' _ hagree
  refine ⟨fun c => Cert.KernelIdeal.Gen.W12 m ρ c (Proc.devRef .tc Cert.KernelIdeal.main_v57),
    Cert.KernelIdeal.Hand.run_value (F := Ideal) m ρ, ?_⟩
  refine (θ_run Cert.ReferenceIdeal.defs _ _).mono (fun _ h c => ?_) (Cert.ReferenceIdeal.Hand.run_main (F := Ideal) m' ρ')
  obtain ⟨a0, a1, a2, a3, a4, a5, a6⟩ := hagree c
  refine ⟨?_, (h c _).trans (Cert.ReferenceIdeal.Hand.kept_arg0 _), (h c _).trans (Cert.ReferenceIdeal.Hand.kept_arg1 _),
      (h c _).trans (Cert.ReferenceIdeal.Hand.kept_arg2 _), (h c _).trans (Cert.ReferenceIdeal.Hand.kept_arg3 _),
      (h c _).trans (Cert.ReferenceIdeal.Hand.kept_arg4 _), (h c _).trans (Cert.ReferenceIdeal.Hand.kept_arg5 _),
      (h c _).trans (Cert.ReferenceIdeal.Hand.kept_arg6 _)⟩
  refine (h c Cert.ReferenceIdeal.main_v51).trans ?_
  rw [Cert.ReferenceIdeal.Hand.result_eq]
  refine Eq.trans ?_ (Cert.KernelIdeal.Hand.result_eq m ρ c).symm
  obtain ⟨k0, k1, k2, k3, k4⟩ := Cert.KernelIdeal.Hand.exit0_args m ρ c
  have e0 : launchContents m' c (Proc.devRef .tc Cert.ReferenceIdeal.main_arg0) = m ((c.tc : Thread Cert.KernelIdeal.nD Cert.KernelIdeal.τ).loc Cert.KernelIdeal.main_arg0) := a0
  have e5 : launchContents m' c (Proc.devRef .tc Cert.ReferenceIdeal.main_arg5) = m ((c.tc : Thread Cert.KernelIdeal.nD Cert.KernelIdeal.τ).loc Cert.KernelIdeal.main_arg5) := a5
  have hmid := Cert.Bridge.mid_agree (Cert.KernelIdeal.Gen.W2 m ρ c) (after Cert.ReferenceIdeal.Hand.opsA (launchContents m' c))
    (by rw [Cert.KernelIdeal.Hand.product0 m ρ c, Cert.ReferenceIdeal.Hand.opsA_v4, e0, e5])
    (by rw [Cert.ReferenceIdeal.Hand.opsA_kept0]; exact k0.trans a0.symm)
    (by rw [Cert.ReferenceIdeal.Hand.opsA_kept1]; exact k1.trans a1.symm)
    (by rw [Cert.ReferenceIdeal.Hand.opsA_kept2]; exact k2.trans a2.symm)
    (by rw [Cert.ReferenceIdeal.Hand.opsA_kept3]; exact k3.trans a3.symm)
    (by rw [Cert.ReferenceIdeal.Hand.opsA_kept4]; exact k4.trans a4.symm)
  rw [← Cert.ReferenceIdeal.Mid.midOps_eq] at hmid
  rw [hmid]
  exact congrArg (Cert.LibMatmul.MM _) a6

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
